-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43_1)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_1) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S409600x128 : Shape := ⟨2, ![409600, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S409600 : Shape := ⟨1, ![409600]⟩
abbrev S40960 : Shape := ⟨1, ![40960]⟩
abbrev S_ : Shape := ⟨0, ![]⟩

class Facts : Prop where
  bcast_S_S409600x128 : S_.BroadcastsInDim S409600x128 (![] : Fin 0 → Fin S409600x128.rank)
  reducesTo_S409600x128_S_d0_1 : S409600x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_arg6 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S409600x128 .f32) (main_arg1 : FVec F S128x256 .f32) (main_arg2 : FVec F S256 .f32) (main_arg3 : FVec F S128x256 .f32) (main_arg4 : FVec F S256x128 .f32) (main_arg5 : FVec F S128 .f32) (main_arg6 : FVec F S256x128 .f32) (main_arg7 : IVec S409600 32) (main_arg8 : IVec S409600 32) (main_arg9 : IVec S40960 32) (main_arg10 : IVec S40960 32) : IVec S_ 1 :=
  let main_v0 : FVec F S409600x128 .f32 := Host.absf main_arg0
  let main_cst : FVec F S_ .f32 := constant S_ .f32 0x7F800000#32
  let main_v1 : FVec F S409600x128 .f32 := broadcastInDim S409600x128 ![] bcast_S_S409600x128 main_cst
  let main_v2 : IVec S409600x128 1 := cmpf .olt main_v0 main_v1
  let main_c : IVec S_ 1 := constantI S_ 1 1#1
  let main_v3 : IVec S_ 1 := (fun x v => Host.reduce IntOp.andi x v reducesTo_S409600x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S409600x128 : Shape := ⟨2, ![409600, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S409600 : Shape := ⟨1, ![409600]⟩
abbrev S40960 : Shape := ⟨1, ![40960]⟩
abbrev S_ : Shape := ⟨0, ![]⟩
abbrev S409600x1 : Shape := ⟨2, ![409600, 1]⟩
abbrev S40960x128 : Shape := ⟨2, ![40960, 128]⟩
abbrev S40960x1 : Shape := ⟨2, ![40960, 1]⟩
abbrev S1x256 : Shape := ⟨2, ![1, 256]⟩
abbrev S40960x256 : Shape := ⟨2, ![40960, 256]⟩
abbrev S4096x128 : Shape := ⟨2, ![4096, 128]⟩
abbrev S4096x256 : Shape := ⟨2, ![4096, 256]⟩
abbrev S4096 : Shape := ⟨1, ![4096]⟩
abbrev S4096x1 : Shape := ⟨2, ![4096, 1]⟩
abbrev S1x128 : Shape := ⟨2, ![1, 128]⟩
abbrev S4096x4096 : Shape := ⟨2, ![4096, 4096]⟩
abbrev S1024x128 : Shape := ⟨2, ![1024, 128]⟩
abbrev S1024x1024 : Shape := ⟨2, ![1024, 1024]⟩
abbrev S128x1024 : Shape := ⟨2, ![128, 1024]⟩

abbrev nBuf : Space → Nat
  | .hbm => 69
  | .vmem => 22
  | .smem => 0
  | _ => 0

abbrev bufTy : (tb : Table) → Fin (tcTables nBuf tb) → BufTy
  | .hbm, ⟨0, _⟩ => ⟨S409600x128, .f32⟩
  | .hbm, ⟨1, _⟩ => ⟨S128x256, .f32⟩
  | .hbm, ⟨2, _⟩ => ⟨S256, .f32⟩
  | .hbm, ⟨3, _⟩ => ⟨S128x256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S409600, .i32⟩
  | .hbm, ⟨8, _⟩ => ⟨S409600, .i32⟩
  | .hbm, ⟨9, _⟩ => ⟨S40960, .i32⟩
  | .hbm, ⟨10, _⟩ => ⟨S40960, .i32⟩
  | .hbm, ⟨11, _⟩ => ⟨S_, .i32⟩
  | .hbm, ⟨12, _⟩ => ⟨S409600, .i32⟩
  | .hbm, ⟨13, _⟩ => ⟨S409600, .i1⟩
  | .hbm, ⟨14, _⟩ => ⟨S_, .i32⟩
  | .hbm, ⟨15, _⟩ => ⟨S409600, .i32⟩
  | .hbm, ⟨16, _⟩ => ⟨S409600, .i32⟩
  | .hbm, ⟨17, _⟩ => ⟨S409600, .i32⟩
  | .hbm, ⟨18, _⟩ => ⟨S409600x1, .i32⟩
  | .hbm, ⟨19, _⟩ => ⟨S409600x128, .f32⟩
  | .hbm, ⟨20, _⟩ => ⟨S_, .f32⟩
  | .hbm, ⟨21, _⟩ => ⟨S40960x128, .f32⟩
  | .hbm, ⟨22, _⟩ => ⟨S409600x1, .i32⟩
  | .hbm, ⟨23, _⟩ => ⟨S40960x128, .f32⟩
  | .hbm, ⟨24, _⟩ => ⟨S_, .f32⟩
  | .hbm, ⟨25, _⟩ => ⟨S409600, .f32⟩
  | .hbm, ⟨26, _⟩ => ⟨S_, .f32⟩
  | .hbm, ⟨27, _⟩ => ⟨S40960, .f32⟩
  | .hbm, ⟨28, _⟩ => ⟨S409600x1, .i32⟩
  | .hbm, ⟨29, _⟩ => ⟨S40960, .f32⟩
  | .hbm, ⟨30, _⟩ => ⟨S_, .f32⟩
  | .hbm, ⟨31, _⟩ => ⟨S40960, .f32⟩
  | .hbm, ⟨32, _⟩ => ⟨S40960, .f32⟩
  | .hbm, ⟨33, _⟩ => ⟨S40960x1, .f32⟩
  | .hbm, ⟨34, _⟩ => ⟨S40960x128, .f32⟩
  | .hbm, ⟨35, _⟩ => ⟨S40960x128, .f32⟩
  | .hbm, ⟨36, _⟩ => ⟨S40960x128, .f32⟩
  | .hbm, ⟨37, _⟩ => ⟨S1x256, .f32⟩
  | .hbm, ⟨38, _⟩ => ⟨S40960x256, .f32⟩
  | .hbm, ⟨39, _⟩ => ⟨S_, .i32⟩
  | .hbm, ⟨40, _⟩ => ⟨S40960, .i32⟩
  | .hbm, ⟨41, _⟩ => ⟨S40960, .i1⟩
  | .hbm, ⟨42, _⟩ => ⟨S_, .i32⟩
  | .hbm, ⟨43, _⟩ => ⟨S40960, .i32⟩
  | .hbm, ⟨44, _⟩ => ⟨S40960, .i32⟩
  | .hbm, ⟨45, _⟩ => ⟨S40960, .i32⟩
  | .hbm, ⟨46, _⟩ => ⟨S40960x1, .i32⟩
  | .hbm, ⟨47, _⟩ => ⟨S40960x256, .f32⟩
  | .hbm, ⟨48, _⟩ => ⟨S_, .f32⟩
  | .hbm, ⟨49, _⟩ => ⟨S4096x256, .f32⟩
  | .hbm, ⟨50, _⟩ => ⟨S40960x1, .i32⟩
  | .hbm, ⟨51, _⟩ => ⟨S4096x256, .f32⟩
  | .hbm, ⟨52, _⟩ => ⟨S_, .f32⟩
  | .hbm, ⟨53, _⟩ => ⟨S40960, .f32⟩
  | .hbm, ⟨54, _⟩ => ⟨S_, .f32⟩
  | .hbm, ⟨55, _⟩ => ⟨S4096, .f32⟩
  | .hbm, ⟨56, _⟩ => ⟨S40960x1, .i32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S1x128, .f32⟩
  | .hbm, ⟨66, _⟩ => ⟨S4096x128, .f32⟩
  | .hbm, ⟨67, _⟩ => ⟨S4096x128, .f32⟩
  | .hbm, ⟨68, _⟩ => ⟨S4096x4096, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S256x128, .f32⟩
  | .local _ .vmem, ⟨12, _⟩ => ⟨S1x128, .f32⟩
  | .local _ .vmem, ⟨13, _⟩ => ⟨S256x128, .f32⟩
  | .local _ .vmem, ⟨14, _⟩ => ⟨S4096x128, .f32⟩
  | .local _ .vmem, ⟨15, _⟩ => ⟨S4096x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x1024, .f32⟩
  | .local _ .vmem, ⟨21, _⟩ => ⟨S1024x1024, .f32⟩
  | _, _ => ⟨S409600x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43_0 : Ref sig .tc := ⟨.hbm, 66, rfl⟩
abbrev main_v43_1 : Ref sig .tc := ⟨.hbm, 67, rfl⟩
abbrev main_v44 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S409600 : S_.BroadcastsInDim S409600 (![] : Fin 0 → Fin S409600.rank)
  bcast_S409600_S409600x1_0 : S409600.BroadcastsInDim S409600x1 (![0] : Fin 1 → Fin S409600x1.rank)
  bcast_S_S40960x128 : S_.BroadcastsInDim S40960x128 (![] : Fin 0 → Fin S40960x128.rank)
  bcast_S_S40960 : S_.BroadcastsInDim S40960 (![] : Fin 0 → Fin S40960.rank)
  bcast_S40960_S40960x1_0 : S40960.BroadcastsInDim S40960x1 (![0] : Fin 1 → Fin S40960x1.rank)
  bcast_S40960x1_S40960x128_0_1 : S40960x1.BroadcastsInDim S40960x128 (![0, 1] : Fin 2 → Fin S40960x128.rank)
  slices_S409600x128_S40960x128_0_0 : S409600x128.Slices ![0, 0] S40960x128
  shapeCasts_S256_S1x256 : S256.ShapeCasts S1x256
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  slices_S40960x256_S4096x256_0_0 : S40960x256.Slices ![0, 0] S4096x256
  shapeCasts_S128_S1x128 : S128.ShapeCasts S1x128
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  broadcasts_S4096x1_S4096x128 : S4096x1.Broadcasts S4096x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  gather_S409600x128_S409600x1_S409600x128_1_0_n_n_0_1_1128_wf : GatherDims.WF S409600x128 S409600x1 S409600x128 [1] [0] [] [0] [] 1 ![1, 128]
  scatter_S40960x128_S409600x1_S409600x128_1_0_0_1_wf : ScatterDims.WF S40960x128 S409600x1 S409600x128 [1] [0] [0] 1
  scatter_S40960_S409600x1_S409600_n_0_0_1_wf : ScatterDims.WF S40960 S409600x1 S409600 [] [0] [0] 1
  dot_S4096x128_S128x256_S4096x256_1_0_0_1_n_n_wf : DotDims.WF S4096x128 S128x256 S4096x256 [1] [0] [0] [1] [] []
  gather_S40960x256_S40960x1_S40960x256_1_0_n_n_0_1_1256_wf : GatherDims.WF S40960x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x128_S4096x128_1_0_0_1_n_n_wf : DotDims.WF S4096x256 S256x128 S4096x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S40960x128.size a
  hwx0_0 : ∀ i : grid0.Coords, EltTy.bits .f32 = 32 ∨ (Rect.block (s := S40960x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S40960x128.size a
  hwx0_1 : ∀ i : grid0.Coords, EltTy.bits .f32 = 32 ∨ (Rect.block (s := S40960x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S40960x256.size a
  hwx0_5 : ∀ i : grid0.Coords, EltTy.bits .f32 = 32 ∨ (Rect.block (s := S40960x256) S4096x256.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S4096x256.size a
  hwx1_0 : ∀ i : grid1.Coords, EltTy.bits .f32 = 32 ∨ (Rect.block (s := S4096x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S4096x128.size a
  hwx1_5 : ∀ i : grid1.Coords, EltTy.bits .f32 = 32 ∨ (Rect.block (s := S4096x128) S4096x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4096x128.size a ≤ S4096x128.size a
  hwx1_6 : ∀ i : grid1.Coords, EltTy.bits .f32 = 32 ∨ (Rect.block (s := S4096x128) S4096x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x128.size a
  hwx2_0 : ∀ i : grid2.Coords, EltTy.bits .f32 = 32 ∨ (Rect.block (s := S4096x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S4096x128.size a
  hwx2_1 : ∀ i : grid2.Coords, EltTy.bits .f32 = 32 ∨ (Rect.block (s := S4096x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)

variable [Facts₀]

def gather_S409600x128_S409600x1_S409600x128_1_0_n_n_0_1_1128 : GatherDims S409600x128 S409600x1 S409600x128 where
  offsetDims := [1]
  collapsedSliceDims := [0]
  operandBatchingDims := []
  startIndicesBatchingDims := []
  startIndexMap := [0]
  indexVectorDim := 1
  sliceSizes := ![1, 128]
  wf := gather_S409600x128_S409600x1_S409600x128_1_0_n_n_0_1_1128_wf
def scatter_S40960x128_S409600x1_S409600x128_1_0_0_1 : ScatterDims S40960x128 S409600x1 S409600x128 where
  updateWindowDims := [1]
  insertedWindowDims := [0]
  scatterDimsToOperandDims := [0]
  indexVectorDim := 1
  wf := scatter_S40960x128_S409600x1_S409600x128_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v18) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S4096x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v41) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S4096x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S4096x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43_0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43_0) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S409600x128 : Shape := ⟨2, ![409600, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S409600 : Shape := ⟨1, ![409600]⟩
abbrev S40960 : Shape := ⟨1, ![40960]⟩
abbrev S40960x128 : Shape := ⟨2, ![40960, 128]⟩
abbrev S_ : Shape := ⟨0, ![]⟩
abbrev S409600x1 : Shape := ⟨2, ![409600, 1]⟩
abbrev S40960x1 : Shape := ⟨2, ![40960, 1]⟩
abbrev S40960x256 : Shape := ⟨2, ![40960, 256]⟩
abbrev S1x256 : Shape := ⟨2, ![1, 256]⟩
abbrev S4096x256 : Shape := ⟨2, ![4096, 256]⟩
abbrev S4096 : Shape := ⟨1, ![4096]⟩
abbrev S4096x1 : Shape := ⟨2, ![4096, 1]⟩
abbrev S4096x128 : Shape := ⟨2, ![4096, 128]⟩
abbrev S1x128 : Shape := ⟨2, ![1, 128]⟩
abbrev S128x4096 : Shape := ⟨2, ![128, 4096]⟩
abbrev S4096x4096 : Shape := ⟨2, ![4096, 4096]⟩

abbrev nBuf : Space → Nat
  | .hbm => 95
  | .vmem => 0
  | .smem => 0
  | _ => 0

abbrev bufTy : (tb : Table) → Fin (tcTables nBuf tb) → BufTy
  | .hbm, ⟨0, _⟩ => ⟨S409600x128, .f32⟩
  | .hbm, ⟨1, _⟩ => ⟨S128x256, .f32⟩
  | .hbm, ⟨2, _⟩ => ⟨S256, .f32⟩
  | .hbm, ⟨3, _⟩ => ⟨S128x256, .f32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S409600, .i32⟩
  | .hbm, ⟨8, _⟩ => ⟨S409600, .i32⟩
  | .hbm, ⟨9, _⟩ => ⟨S40960, .i32⟩
  | .hbm, ⟨10, _⟩ => ⟨S40960, .i32⟩
  | .hbm, ⟨11, _⟩ => ⟨S40960x128, .f32⟩
  | .hbm, ⟨12, _⟩ => ⟨S_, .i32⟩
  | .hbm, ⟨13, _⟩ => ⟨S409600, .i32⟩
  | .hbm, ⟨14, _⟩ => ⟨S409600, .i1⟩
  | .hbm, ⟨15, _⟩ => ⟨S_, .i32⟩
  | .hbm, ⟨16, _⟩ => ⟨S409600, .i32⟩
  | .hbm, ⟨17, _⟩ => ⟨S409600, .i32⟩
  | .hbm, ⟨18, _⟩ => ⟨S409600, .i32⟩
  | .hbm, ⟨19, _⟩ => ⟨S409600x1, .i32⟩
  | .hbm, ⟨20, _⟩ => ⟨S409600x128, .f32⟩
  | .hbm, ⟨21, _⟩ => ⟨S_, .f32⟩
  | .hbm, ⟨22, _⟩ => ⟨S40960x128, .f32⟩
  | .hbm, ⟨23, _⟩ => ⟨S409600x1, .i32⟩
  | .hbm, ⟨24, _⟩ => ⟨S40960x128, .f32⟩
  | .hbm, ⟨25, _⟩ => ⟨S_, .f32⟩
  | .hbm, ⟨26, _⟩ => ⟨S409600, .f32⟩
  | .hbm, ⟨27, _⟩ => ⟨S_, .f32⟩
  | .hbm, ⟨28, _⟩ => ⟨S40960, .f32⟩
  | .hbm, ⟨29, _⟩ => ⟨S409600x1, .i32⟩
  | .hbm, ⟨30, _⟩ => ⟨S40960, .f32⟩
  | .hbm, ⟨31, _⟩ => ⟨S_, .f32⟩
  | .hbm, ⟨32, _⟩ => ⟨S40960, .f32⟩
  | .hbm, ⟨33, _⟩ => ⟨S40960, .f32⟩
  | .hbm, ⟨34, _⟩ => ⟨S40960x1, .f32⟩
  | .hbm, ⟨35, _⟩ => ⟨S40960x128, .f32⟩
  | .hbm, ⟨36, _⟩ => ⟨S40960x128, .f32⟩
  | .hbm, ⟨37, _⟩ => ⟨S40960x256, .f32⟩
  | .hbm, ⟨38, _⟩ => ⟨S1x256, .f32⟩
  | .hbm, ⟨39, _⟩ => ⟨S40960x256, .f32⟩
  | .hbm, ⟨40, _⟩ => ⟨S40960x256, .f32⟩
  | .hbm, ⟨41, _⟩ => ⟨S40960x256, .f32⟩
  | .hbm, ⟨42, _⟩ => ⟨S40960x256, .f32⟩
  | .hbm, ⟨43, _⟩ => ⟨S_, .f32⟩
  | .hbm, ⟨44, _⟩ => ⟨S40960x256, .f32⟩
  | .hbm, ⟨45, _⟩ => ⟨S40960x256, .f32⟩
  | .hbm, ⟨46, _⟩ => ⟨S4096x256, .f32⟩
  | .hbm, ⟨47, _⟩ => ⟨S_, .i32⟩
  | .hbm, ⟨48, _⟩ => ⟨S40960, .i32⟩
  | .hbm, ⟨49, _⟩ => ⟨S40960, .i1⟩
  | .hbm, ⟨50, _⟩ => ⟨S_, .i32⟩
  | .hbm, ⟨51, _⟩ => ⟨S40960, .i32⟩
  | .hbm, ⟨52, _⟩ => ⟨S40960, .i32⟩
  | .hbm, ⟨53, _⟩ => ⟨S40960, .i32⟩
  | .hbm, ⟨54, _⟩ => ⟨S40960x1, .i32⟩
  | .hbm, ⟨55, _⟩ => ⟨S40960x256, .f32⟩
  | .hbm, ⟨56, _⟩ => ⟨S_, .f32⟩
  | .hbm, ⟨57, _⟩ => ⟨S4096x256, .f32⟩
  | .hbm, ⟨58, _⟩ => ⟨S40960x1, .i32⟩
  | .hbm, ⟨59, _⟩ => ⟨S4096x256, .f32⟩
  | .hbm, ⟨60, _⟩ => ⟨S_, .f32⟩
  | .hbm, ⟨61, _⟩ => ⟨S40960, .f32⟩
  | .hbm, ⟨62, _⟩ => ⟨S_, .f32⟩
  | .hbm, ⟨63, _⟩ => ⟨S4096, .f32⟩
  | .hbm, ⟨64, _⟩ => ⟨S40960x1, .i32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x1, .f32⟩
  | .hbm, ⟨70, _⟩ => ⟨S4096x256, .f32⟩
  | .hbm, ⟨71, _⟩ => ⟨S4096x256, .f32⟩
  | .hbm, ⟨72, _⟩ => ⟨S4096x128, .f32⟩
  | .hbm, ⟨73, _⟩ => ⟨S1x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S4096x128, .f32⟩
  | .hbm, ⟨78, _⟩ => ⟨S_, .f32⟩
  | .hbm, ⟨79, _⟩ => ⟨S4096, .f32⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S4096x1, .f32⟩
  | .hbm, ⟨84, _⟩ => ⟨S4096x128, .f32⟩
  | .hbm, ⟨85, _⟩ => ⟨S4096x128, .f32⟩
  | .hbm, ⟨86, _⟩ => ⟨S4096x128, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1, .f32⟩
  | .hbm, ⟨91, _⟩ => ⟨S4096x128, .f32⟩
  | .hbm, ⟨92, _⟩ => ⟨S4096x128, .f32⟩
  | .hbm, ⟨93, _⟩ => ⟨S128x4096, .f32⟩
  | .hbm, ⟨94, _⟩ => ⟨S4096x4096, .f32⟩
  | _, _ => ⟨S409600x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_call1_cst_0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_cst_1 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩

abbrev nD : Nat := 1
abbrev τ : Topo := Topo.v7x

variable {F : FTy → Type} [FloatOps F]

class Facts₀ : Prop where
  slices_S409600x128_S40960x128_0_0 : S409600x128.Slices ![0, 0] S40960x128
  bcast_S_S409600 : S_.BroadcastsInDim S409600 (![] : Fin 0 → Fin S409600.rank)
  bcast_S409600_S409600x1_0 : S409600.BroadcastsInDim S409600x1 (![0] : Fin 1 → Fin S409600x1.rank)
  bcast_S_S40960x128 : S_.BroadcastsInDim S40960x128 (![] : Fin 0 → Fin S40960x128.rank)
  bcast_S_S40960 : S_.BroadcastsInDim S40960 (![] : Fin 0 → Fin S40960.rank)
  bcast_S40960_S40960x1_0 : S40960.BroadcastsInDim S40960x1 (![0] : Fin 1 → Fin S40960x1.rank)
  bcast_S40960x1_S40960x128_0_1 : S40960x1.BroadcastsInDim S40960x128 (![0, 1] : Fin 2 → Fin S40960x128.rank)
  bcast_S256_S1x256_1 : S256.BroadcastsInDim S1x256 (![1] : Fin 1 → Fin S1x256.rank)
  bcast_S1x256_S40960x256_0_1 : S1x256.BroadcastsInDim S40960x256 (![0, 1] : Fin 2 → Fin S40960x256.rank)
  bcast_S_S40960x256 : S_.BroadcastsInDim S40960x256 (![] : Fin 0 → Fin S40960x256.rank)
  slices_S40960x256_S4096x256_0_0 : S40960x256.Slices ![0, 0] S4096x256
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  reducesTo_S4096x128_S4096_d1 : S4096x128.ReducesTo [1] S4096
  h_S_ : 0 < S_.numel
  bcast_S4096x1_S4096x128_0_1 : S4096x1.BroadcastsInDim S4096x128 (![0, 1] : Fin 2 → Fin S4096x128.rank)
  transposes_S4096x128_S128x4096_1_0 : S4096x128.Transposes [1, 0] S128x4096
  gather_S409600x128_S409600x1_S409600x128_1_0_n_n_0_1_1128_wf : GatherDims.WF S409600x128 S409600x1 S409600x128 [1] [0] [] [0] [] 1 ![1, 128]
  scatter_S40960x128_S409600x1_S409600x128_1_0_0_1_wf : ScatterDims.WF S40960x128 S409600x1 S409600x128 [1] [0] [0] 1
  scatter_S40960_S409600x1_S409600_n_0_0_1_wf : ScatterDims.WF S40960 S409600x1 S409600 [] [0] [0] 1
  dot_S40960x128_S128x256_S40960x256_1_0_0_1_n_n_wf : DotDims.WF S40960x128 S128x256 S40960x256 [1] [0] [0] [1] [] []
  gather_S40960x256_S40960x1_S40960x256_1_0_n_n_0_1_1256_wf : GatherDims.WF S40960x256 S40960x1 S40960x256 [1] [0] [] [0] [] 1 ![1, 256]
  scatter_S4096x256_S40960x1_S40960x256_1_0_0_1_wf : ScatterDims.WF S4096x256 S40960x1 S40960x256 [1] [0] [0] 1
  scatter_S4096_S40960x1_S40960_n_0_0_1_wf : ScatterDims.WF S4096 S40960x1 S40960 [] [0] [0] 1
  dot_S4096x256_S256x128_S4096x128_1_0_0_1_n_n_wf : DotDims.WF S4096x256 S256x128 S4096x128 [1] [0] [0] [1] [] []
  dot_S4096x128_S128x4096_S4096x4096_1_0_0_1_n_n_wf : DotDims.WF S4096x128 S128x4096 S4096x4096 [1] [0] [0] [1] [] []

variable [Facts₀]

def gather_S409600x128_S409600x1_S409600x128_1_0_n_n_0_1_1128 : GatherDims S409600x128 S409600x1 S409600x128 where
  offsetDims := [1]
  collapsedSliceDims := [0]
  operandBatchingDims := []
  startIndicesBatchingDims := []
  startIndexMap := [0]
  indexVectorDim := 1
  sliceSizes := ![1, 128]
  wf := gather_S409600x128_S409600x1_S409600x128_1_0_n_n_0_1_1128_wf
def scatter_S40960x128_S409600x1_S409600x128_1_0_0_1 : ScatterDims S40960x128 S409600x1 S409600x128 where
  updateWindowDims := [1]
  insertedWindowDims := [0]
  scatterDimsToOperandDims := [0]
  indexVectorDim := 1
  wf := scatter_S40960x128_S409600x1_S409600x128_1_0_0_1_wf
def scatter_S40960_S409600x1_S409600_n_0_0_1 : ScatterDims S40960 S409600x1 S409600 where
  updateWindowDims := []
  insertedWindowDims := [0]
  scatterDimsToOperandDims := [0]
  indexVectorDim := 1
  wf := scatter_S40960_S409600x1_S409600_n_0_0_1_wf
def dot_S40960x128_S128x256_S40960x256_1_0_0_1_n_n : DotDims S40960x128 S128x256 S40960x256 where
  lhsContracting := [1]
  rhsContracting := [0]
  lhsNonContracting := [0]
  rhsNonContracting := [1]
  lhsBatch := []
  rhsBatch := []
  wf := dot_S40960x128_S128x256_S40960x256_1_0_0_1_n_n_wf
def gather_S40960x256_S40960x1_S40960x256_1_0_n_n_0_1_1256 : GatherDims S40960x256 S40960x1 S40960x256 where
  offsetDims := [1]
  collapsedSliceDims := [0]
  operandBatchingDims := []
  startIndicesBatchingDims := []
  startIndexMap := [0]
  indexVectorDim := 1
  sliceSizes := ![1, 256]
  wf := gather_S40960x256_S40960x1_S40960x256_1_0_n_n_0_1_1256_wf
def scatter_S4096x256_S40960x1_S40960x256_1_0_0_1 : ScatterDims S4096x256 S40960x1 S40960x256 where
  updateWindowDims := [1]
  insertedWindowDims := [0]
  scatterDimsToOperandDims := [0]
  indexVectorDim := 1
  wf := scatter_S4096x256_S40960x1_S40960x256_1_0_0_1_wf
def scatter_S4096_S40960x1_S40960_n_0_0_1 : ScatterDims S4096 S40960x1 S40960 where
  updateWindowDims := []
  insertedWindowDims := [0]
  scatterDimsToOperandDims := [0]
  indexVectorDim := 1
  wf := scatter_S4096_S40960x1_S40960_n_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.BitsRegion0.lean ====
/-
  Region 0 of the program: the first layer's combine — two row blocks times two weight matrices, plus a bias row, clamped below at zero — over ten row blocks.
  Stated at any float instance and at a parameter `V`, the buffer contents the region is entered with.
-/
import proofs.«113220_j42322607735218_1_alg».proof.Proof.Gen.Kernel.Launch
import proofs.«113220_j42322607735218_1_alg».proof.Proof.Gen.Kernel.Skeleton
import proofs.«113220_j42322607735218_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the kernel `cc0__combine0_kernel` on its grid, from the contents `V` the region is entered with -/

variable (V : (c : Dev nD) → (b : Ref sig .tc) → Buf (Elt F) ((c : Thread nD τ).loc b))

/-- Window `w`'s block at grid point `t`: the rectangle of its array, as the region finds the array, that the window's index map
    names at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, whether or not the block was copied in at that point:
    where it was not, the block index has not moved since the last copy. Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds the window's block at every point, whether or not the block was copied in at that point:
    where it was not, the block index has not moved since the last copy. Window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds the window's block at every point, whether or not the block was copied in at that point:
    where it was not, the block index has not moved since the last copy. Window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds the window's block at every point, whether or not the block was copied in at that point:
    where it was not, the block index has not moved since the last copy. Window 3. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds the window's block at every point, whether or not the block was copied in at that point:
    where it was not, the block index has not moved since the last copy. Window 4. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: every access is a whole buffer -/

abbrev r0_0 : Rect S4096x128 := Rect.unit (s := S4096x128) ![0, 0] S4096x128.size inb_S4096x128_S4096x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S4096x256 := Rect.unit (s := S4096x256) ![0, 0] S4096x256.size inb_S4096x256_S4096x256_0_0

/-! ## What the body leaves in each output buffer, as a function of the input blocks -/

/-- Output window 5's buffer after the body: its one store, of the whole buffer, of the payload `k0_pay1` of the loaded inputs. -/
def out0_5 (x0 : Vec F S4096x128 .f32) (x1 : Vec F S4096x128 .f32) (x2 : Vec F S128x256 .f32) (x3 : Vec F S1x256 .f32) (x4 : Vec F S128x256 .f32) : Vec F S4096x256 .f32 :=
  View.canon [⟨r0_3, k0_pay1 (View.ld x0 r0_0) (View.ld x1 r0_0) (View.ld x2 r0_1) (View.ld x4 r0_1) (View.ld x3 r0_2)⟩]

/-- The one store covers the buffer. -/
theorem cover0_5 (p0 : Vec F S4096x256 .f32) (y : S4096x256.Idx) :
    ∃ pc ∈ ([⟨r0_3, p0⟩] : List (View.Piece (Elt F) S4096x256 .f32)), y ∈ pc.1.set :=
  View.cover_of_tiled [⟨r0_3, p0⟩] S4096x256.size (by rfl) y

/-! ## The body's triple -/

set_option maxHeartbeats 4000000 in
/-- The body, run on whole buffers — the inputs' holding `x0 …`, the outputs' anything —, ends with the inputs' as they were and each
    output's at `out0_W` of the inputs: the loads read the buffers whole, the payloads are pure, the stores overwrite whole buffers. -/
theorem sound_kernel0 (c : Dev nD) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S128x256 .f32) (harg5 : arg5.IsWhole) (arg6 : Memref sig .tc .vmem S4096x256 .f32) (harg6 : arg6.IsWhole)
    (x0 : Vec F S4096x128 .f32) (x1 : Vec F S4096x128 .f32) (x2 : Vec F S128x256 .f32) (x3 : Vec F S1x256 .f32) (x4 : Vec F S128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__combine0_kernel i arg1 harg1 arg2 harg2 arg3 harg3 arg4 harg4 arg5 harg5 arg6 harg6) K := by
  simp only [cc0__combine0_kernel_eq_skeleton]; unfold cc0__combine0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- The arrays as the region finds them; after the body at point `t` each input buffer still at its block, each output buffer at
    `out0_W` of the input blocks; the invariant carries only the buffers no window stages and the generator register, untouched;
    nothing is owed; every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`: the invariant, the core's dues, each window's current buffer at what it holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and the dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the launch theorems ask for, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsRegion1.lean ====
/-
  Region 1 of the program: the second layer's combine on one whole block, and its row-wise log-softmax: two outputs from one set of inputs.
  Stated at any float instance and at a parameter `V`, the buffer contents the region is entered with.
-/
import proofs.«113220_j42322607735218_1_alg».proof.Proof.Gen.Kernel.Launch
import proofs.«113220_j42322607735218_1_alg».proof.Proof.Gen.Kernel.Skeleton
import proofs.«113220_j42322607735218_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the kernel `cc1__combine1_kernel` on its grid, from the contents `V` the region is entered with -/

variable (V : (c : Dev nD) → (b : Ref sig .tc) → Buf (Elt F) ((c : Thread nD τ).loc b))

/-- Window `w`'s block at grid point `t`: the rectangle of its array, as the region finds the array, that the window's index map
    names at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds the window's block at every point, whether or not the block was copied in at that point:
    where it was not, the block index has not moved since the last copy. Window 0. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds the window's block at every point, whether or not the block was copied in at that point:
    where it was not, the block index has not moved since the last copy. Window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds the window's block at every point, whether or not the block was copied in at that point:
    where it was not, the block index has not moved since the last copy. Window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds the window's block at every point, whether or not the block was copied in at that point:
    where it was not, the block index has not moved since the last copy. Window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds the window's block at every point, whether or not the block was copied in at that point:
    where it was not, the block index has not moved since the last copy. Window 4. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: every access is a whole buffer -/

abbrev r1_0 : Rect S4096x256 := Rect.unit (s := S4096x256) ![0, 0] S4096x256.size inb_S4096x256_S4096x256_0_0
abbrev r1_1 : Rect S256x128 := Rect.unit (s := S256x128) ![0, 0] S256x128.size inb_S256x128_S256x128_0_0
abbrev r1_2 : Rect S1x128 := Rect.unit (s := S1x128) ![0, 0] S1x128.size inb_S1x128_S1x128_0_0
abbrev r1_3 : Rect S4096x128 := Rect.unit (s := S4096x128) ![0, 0] S4096x128.size inb_S4096x128_S4096x128_0_0

/-! ## What the body leaves in each output buffer, as a function of the input blocks -/

/-- Output window 5's buffer after the body: its one store, of the whole buffer, of the payload `k1_pay1` of the loaded inputs. -/
def out1_5 (x0 : Vec F S4096x256 .f32) (x1 : Vec F S4096x256 .f32) (x2 : Vec F S256x128 .f32) (x3 : Vec F S1x128 .f32) (x4 : Vec F S256x128 .f32) : Vec F S4096x128 .f32 :=
  View.canon [⟨r1_3, k1_pay1 (View.ld x0 r1_0) (View.ld x1 r1_0) (View.ld x2 r1_1) (View.ld x4 r1_1) (View.ld x3 r1_2)⟩]

/-- The one store covers the buffer. -/
theorem cover1_5 (p0 : Vec F S4096x128 .f32) (y : S4096x128.Idx) :
    ∃ pc ∈ ([⟨r1_3, p0⟩] : List (View.Piece (Elt F) S4096x128 .f32)), y ∈ pc.1.set :=
  View.cover_of_tiled [⟨r1_3, p0⟩] S4096x128.size (by rfl) y

/-- Output window 6's buffer after the body: its one store, of the whole buffer, of the payload `k1_pay2` of the loaded inputs. -/
def out1_6 (x0 : Vec F S4096x256 .f32) (x1 : Vec F S4096x256 .f32) (x2 : Vec F S256x128 .f32) (x3 : Vec F S1x128 .f32) (x4 : Vec F S256x128 .f32) : Vec F S4096x128 .f32 :=
  View.canon [⟨r1_3, k1_pay2 (View.ld x0 r1_0) (View.ld x1 r1_0) (View.ld x2 r1_1) (View.ld x4 r1_1) (View.ld x3 r1_2)⟩]

/-- The one store covers the buffer. -/
theorem cover1_6 (p0 : Vec F S4096x128 .f32) (y : S4096x128.Idx) :
    ∃ pc ∈ ([⟨r1_3, p0⟩] : List (View.Piece (Elt F) S4096x128 .f32)), y ∈ pc.1.set :=
  View.cover_of_tiled [⟨r1_3, p0⟩] S4096x128.size (by rfl) y

/-! ## The body's triple -/

set_option maxHeartbeats 4000000 in
/-- The body, run on whole buffers — the inputs' holding `x0 …`, the outputs' anything —, ends with the inputs' as they were and each
    output's at `out1_W` of the inputs: the loads read the buffers whole, the payloads are pure, the stores overwrite whole buffers. -/
theorem sound_kernel1 (c : Dev nD) (E : Set ℕ) (i : grid1.Coords) (arg1 : Memref sig .tc .vmem S4096x256 .f32) (harg1 : arg1.IsWhole) (arg2 : Memref sig .tc .vmem S4096x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S4096x128 .f32) (harg6 : arg6.IsWhole) (arg7 : Memref sig .tc .vmem S4096x128 .f32) (harg7 : arg7.IsWhole)
    (x0 : Vec F S4096x256 .f32) (x1 : Vec F S4096x256 .f32) (x2 : Vec F S256x128 .f32) (x3 : Vec F S1x128 .f32) (x4 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__combine1_kernel i arg1 harg1 arg2 harg2 arg3 harg3 arg4 harg4 arg5 harg5 arg6 harg6 arg7 harg7) K := by
  simp only [cc1__combine1_kernel_eq_skeleton]; unfold cc1__combine1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The region's proof data -/

/-- The arrays as the region finds them; after the body at point `t` each input buffer still at its block, each output buffer at
    `out1_W` of the input blocks; the invariant carries only the buffers no window stages and the generator register, untouched;
    nothing is owed; every array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`: the invariant, the core's dues, each window's current buffer at what it holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so the body's triple applies; the invariant and the dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation the launch theorems ask for, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRegion2.lean ====
/-
  Region 2 of the program: the inner-product decode: a 4 × 4 grid of 1024 × 1024 tiles, each the product of a row block with the transpose of another; both operands are read from one array.
  Stated at any float instance and at a parameter `V`, the buffer contents the region is entered with.
-/
import proofs.«113220_j42322607735218_1_alg».proof.Proof.Gen.Kernel.Launch
import proofs.«113220_j42322607735218_1_alg».proof.Proof.Gen.Kernel.Skeleton
import proofs.«113220_j42322607735218_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: the kernel `cc2__decode_kernel` on its grid, from the contents `V` the region is entered with -/

variable (V : (c : Dev nD) → (b : Ref sig .tc) → Buf (Elt F) ((c : Thread nD τ).loc b))

/-- Window `w`'s block at grid point `t`: the rectangle of its array, as the region finds the array, that the window's index map
    names at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds the window's block at every point, whether or not the block was copied in at that point:
    where it was not, the block index has not moved since the last copy. Window 0. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds the window's block at every point, whether or not the block was copied in at that point:
    where it was not, the block index has not moved since the last copy. Window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: every access is a whole buffer -/

abbrev r2_0 : Rect S1024x128 := Rect.unit (s := S1024x128) ![0, 0] S1024x128.size inb_S1024x128_S1024x128_0_0
abbrev r2_1 : Rect S1024x1024 := Rect.unit (s := S1024x1024) ![0, 0] S1024x1024.size inb_S1024x1024_S1024x1024_0_0

/-! ## What the body leaves in each output buffer, as a function of the input blocks -/

/-- Output window 2's buffer after the body: its one store, of the whole buffer, of the payload `k2_pay1` of the loaded inputs. -/
def out2_2 (x0 : Vec F S1024x128 .f32) (x1 : Vec F S1024x128 .f32) : Vec F S1024x1024 .f32 :=
  View.canon [⟨r2_1, k2_pay1 (View.ld x0 r2_0) (View.ld x1 r2_0)⟩]

/-- The one store covers the buffer. -/
theorem cover2_2 (p0 : Vec F S1024x1024 .f32) (y : S1024x1024.Idx) :
    ∃ pc ∈ ([⟨r2_1, p0⟩] : List (View.Piece (Elt F) S1024x1024 .f32)), y ∈ pc.1.set :=
  View.cover_of_tiled [⟨r2_1, p0⟩] S1024x1024.size (by rfl) y

/-! ## The body's triple -/

set_option maxHeartbeats 4000000 in
/-- The body, run on whole buffers — the inputs' holding `x0 …`, the outputs' anything —, ends with the inputs' as they were and each
    output's at `out2_W` of the inputs: the loads read the buffers whole, the payloads are pure, the stores overwrite whole buffers. -/
theorem sound_kernel2 (c : Dev nD) (E : Set ℕ) (i : grid2.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The arrays as the region finds them; after the body at point `t` each input buffer still at its block, each output buffer at
    `out2_W` of the input blocks; the invariant carries only the buffers no window stages and the generator register, untouched;
    nothing is owed; the two input windows, which read one array, hold a half of it each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic point -/

/-- What the body is called with at point `t`: the invariant, the core's dues, each window's current buffer at what it holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and the dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation the launch theorems ask for, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsShared.lean ====
/-
  Region 2 reads ONE array through its two input windows. The launch hands a region each DISTINCT buffer behind its windows' arrays
  whole; the region's proof data hold the shared array once per window, a half share each. This module is the two entailments
  between the two readings: at entry the buffer is split into its left and right halves; at exit — an input array is never
  written, so both halves still hold the entry contents — the halves are joined, and the output array is taken at what the
  sixteen write-backs leave.
-/
import proofs.«113220_j42322607735218_1_alg».proof.Proof.BitsRegion2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ENTRY. A core's unscoped buffers at `V` are region 2's arrays at their entry contents — the shared input array as two half
    shares, the output array whole — beside the unscoped buffers that are no array of the region. -/
theorem arrays2_of_bufs (c : Dev nD) :
    (unscopedBufs c (V c) : sProp 𝕄) ⊢ iprop((dat2 V c).arrays (fun w => (dat2 V c).arrAt w 0) ∗ Pipeline.unscopedRest spec2 c (V c)) := by
  rw [Pipeline.unscopedBufs_split₀ cfgs 2 winFacts₀2.arr_unscoped c (V c)]
  refine sep_mono ?_ .rfl
  unfold Pipeline.arrBufs Dat.arrays
  rw [show (Finset.univ.image (Pipeline.arrRef (cfgs 2).spec) : Finset (Ref sig .tc)) = {main_v43_0, main_v44} from by decide,
      bigSep_insert (by decide), bigSep_singleton]
  show _ ⊢ bigSep (Finset.univ : Finset (Fin 3)) _
  rw [bigSep_W2]
  dsimp only
  rw [View.set_whole, View.set_whole]
  show iprop(((c : Thread nD τ).loc main_v43_0 ↦{fullShare} V c main_v43_0) ∗ ((c : Thread nD τ).loc main_v44 ↦{fullShare} V c main_v44))
    ⊢ iprop(((c : Thread nD τ).loc main_v43_0 ↦{fullShare.left} V c main_v43_0) ∗ ((c : Thread nD τ).loc main_v43_0 ↦{fullShare.right} V c main_v43_0)
        ∗ ((c : Thread nD τ).loc main_v44 ↦{fullShare} V c main_v44))
  iintro ⟨H0, H2⟩
  ihave H' := (pointsTo_share (PosShare.mem_left_op_right fullShare)).1 $$ H0
  icases H' with ⟨Hl, Hr⟩
  isplitl [Hl]; · iexact Hl
  isplitl [Hr]; · iexact Hr
  iexact H2

/-- EXIT. Region 2's arrays at their final contents, beside the unscoped buffers that are no array of it at `V`, are the core's
    unscoped buffers at any contents `V'` that has the output array at what the write-backs leave and every other buffer at `V`. -/
theorem bufs_of_arrays2 (c : Dev nD) (V' : (b : Ref sig .tc) → Buf (Elt F) ((c : Thread nD τ).loc b))
    (hout : V' main_v44 = (dat2 V c).arrAt 2 cfg2.N) (hrest : ∀ b, b ≠ main_v44 → V' b = V c b) :
    iprop((dat2 V c).arrays (fun w => (dat2 V c).arrAt w cfg2.N) ∗ Pipeline.unscopedRest spec2 c (V c)) ⊢ (unscopedBufs c V' : sProp 𝕄) := by
  rw [Pipeline.unscopedBufs_split₀ cfgs 2 winFacts₀2.arr_unscoped c V']
  refine sep_mono ?_ (Entails.of_eq ?_)
  · unfold Pipeline.arrBufs Dat.arrays
    rw [show (Finset.univ.image (Pipeline.arrRef (cfgs 2).spec) : Finset (Ref sig .tc)) = {main_v43_0, main_v44} from by decide,
        bigSep_insert (by decide), bigSep_singleton]
    show bigSep (Finset.univ : Finset (Fin 3)) _ ⊢ _
    rw [bigSep_W2]
    dsimp only
    rw [View.set_whole, View.set_whole, (dat2 V c).arrAt_in 0 rfl, (dat2 V c).arrAt_in 1 rfl, ← hout, hrest main_v43_0 (by decide)]
    show iprop(((c : Thread nD τ).loc main_v43_0 ↦{fullShare.left} V c main_v43_0) ∗ ((c : Thread nD τ).loc main_v43_0 ↦{fullShare.right} V c main_v43_0)
        ∗ ((c : Thread nD τ).loc main_v44 ↦{fullShare} V' main_v44))
      ⊢ iprop(((c : Thread nD τ).loc main_v43_0 ↦{fullShare} V c main_v43_0) ∗ ((c : Thread nD τ).loc main_v44 ↦{fullShare} V' main_v44))
    iintro ⟨Hl, Hr, H2⟩
    isplitl [Hl Hr]
    · iapply (pointsTo_share (PosShare.mem_left_op_right fullShare)).2
      isplitl [Hl]; · iexact Hl
      iexact Hr
    iexact H2
  · unfold Pipeline.unscopedRest
    refine bigSep_congr fun b hb => ?_
    rw [hrest b fun e => (Finset.mem_sdiff.mp hb).2 (Finset.mem_image.mpr ⟨2, Finset.mem_univ _, e ▸ rfl⟩)]

end Cert.Kernel.Hand

end
-- ==== Proof.BitsRun.lean ====
/-
  The whole run of the program: the buffer contents at each boundary between a stretch of host operations and a kernel region,
  folded from the launch memory; the three regions as segments over the thread state "every unscoped buffer at the boundary's
  contents"; and the run itself — every weakly fair execution terminates, nothing faults, and every unscoped buffer ends at the
  last boundary's contents. The frame claim and the two results are read off that one statement.
  Region 2 reads ONE array through two input windows: at its entry the array's buffer is split into two half shares, one per
  window, and at its exit the halves — the inputs are never written — are joined again.
-/
import proofs.«113220_j42322607735218_1_alg».proof.Proof.BitsRegion0
import proofs.«113220_j42322607735218_1_alg».proof.Proof.BitsRegion1
import proofs.«113220_j42322607735218_1_alg».proof.Proof.BitsRegion2
import proofs.«113220_j42322607735218_1_alg».proof.Proof.BitsShared
import proofs.«113220_j42322607735218_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output with its write-backs in place), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, an output with its write-backs in place), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its output array with the sixteen tiles written back, every other buffer — the array its two input windows
    read among them — as entered. -/
def W5 (c : Dev nD) : Valuation τ sig (Elt F) :=
  Function.update (W4 m ρ c) (Proc.devRef .tc main_v44) ((dat2 (V4 m ρ) c).arrAt 2 cfg2.N)
theorem W5_out (c : Dev nD) : W5 m ρ c (Proc.devRef .tc main_v44) = (dat2 (V4 m ρ) c).arrAt 2 cfg2.N := by
  unfold W5; exact Function.update_self _ _ _
theorem W5_of_ne (c : Dev nD) (b : Ref sig .tc) (hb : b ≠ main_v44) : W5 m ρ c (Proc.devRef .tc b) = W4 m ρ c (Proc.devRef .tc b) := by
  unfold W5; exact Function.update_of_ne (StableHlo.devRef_ne_of_ne hb) _ _
abbrev V5 : (c : Dev nD) → (b : Ref sig .tc) → Buf (Elt F) ((c : Thread nD τ).loc b) := fun c b => W5 m ρ c b

/-! ### Every argument ends as launched: no host operation writes one, and no region's output array is one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_writes_sub hostOps0 _ hostOps0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W1`, left with them at `W2`. Its arrays are taken out of
    the unscoped buffers at entry and put back at what the write-backs leave; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are taken out of
    the unscoped buffers at entry and put back at what the write-backs leave; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. The array its two input
    windows read is split into its two half shares at entry and joined at exit (`arrays2_of_bufs`, `bufs_of_arrays2`). -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit : (unscopedBufs c (V4 m ρ c) : sProp 𝕄)
        ⊢ iprop((pdats m ρ 2 c).arrays ((pdats m ρ 2 c).arrAt · 0) ∗ Pipeline.unscopedRest spec2 c (V4 m ρ c)) := arrays2_of_bufs (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (V4 m ρ c))
        ⊢ (unscopedBufs c (V5 m ρ c) : sProp 𝕄) :=
      bufs_of_arrays2 (V4 m ρ) c (V5 m ρ c) (W5_out m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting, and in the
    final memory every unscoped buffer of every core holds the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c)⟩) (run_all m ρ)

end Cert.Kernel.Hand

end
-- ==== Proof.IdealRegion0.lean ====
/-
  Region 0 of the program: the first layer's combine — two row blocks times two weight matrices, plus a bias row, clamped below at zero — over ten row blocks.
  Stated at any float instance and at a parameter `V`, the buffer contents the region is entered with.
-/
import proofs.«113220_j42322607735218_1_alg».proof.Proof.Gen.KernelIdeal.Launch
import proofs.«113220_j42322607735218_1_alg».proof.Proof.Gen.KernelIdeal.Skeleton
import proofs.«113220_j42322607735218_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the kernel `cc0__combine0_kernel` on its grid, from the contents `V` the region is entered with -/

variable (V : (c : Dev nD) → (b : Ref sig .tc) → Buf (Elt F) ((c : Thread nD τ).loc b))

/-- Window `w`'s block at grid point `t`: the rectangle of its array, as the region finds the array, that the window's index map
    names at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, whether or not the block was copied in at that point:
    where it was not, the block index has not moved since the last copy. Window 0. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds the window's block at every point, whether or not the block was copied in at that point:
    where it was not, the block index has not moved since the last copy. Window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds the window's block at every point, whether or not the block was copied in at that point:
    where it was not, the block index has not moved since the last copy. Window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds the window's block at every point, whether or not the block was copied in at that point:
    where it was not, the block index has not moved since the last copy. Window 3. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds the window's block at every point, whether or not the block was copied in at that point:
    where it was not, the block index has not moved since the last copy. Window 4. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: every access is a whole buffer -/

abbrev r0_0 : Rect S4096x128 := Rect.unit (s := S4096x128) ![0, 0] S4096x128.size inb_S4096x128_S4096x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S4096x256 := Rect.unit (s := S4096x256) ![0, 0] S4096x256.size inb_S4096x256_S4096x256_0_0

/-! ## What the body leaves in each output buffer, as a function of the input blocks -/

/-- Output window 5's buffer after the body: its one store, of the whole buffer, of the payload `k0_pay1` of the loaded inputs. -/
def out0_5 (x0 : Vec F S4096x128 .f32) (x1 : Vec F S4096x128 .f32) (x2 : Vec F S128x256 .f32) (x3 : Vec F S1x256 .f32) (x4 : Vec F S128x256 .f32) : Vec F S4096x256 .f32 :=
  View.canon [⟨r0_3, k0_pay1 (View.ld x0 r0_0) (View.ld x1 r0_0) (View.ld x2 r0_1) (View.ld x4 r0_1) (View.ld x3 r0_2)⟩]

/-- The one store covers the buffer. -/
theorem cover0_5 (p0 : Vec F S4096x256 .f32) (y : S4096x256.Idx) :
    ∃ pc ∈ ([⟨r0_3, p0⟩] : List (View.Piece (Elt F) S4096x256 .f32)), y ∈ pc.1.set :=
  View.cover_of_tiled [⟨r0_3, p0⟩] S4096x256.size (by rfl) y

/-! ## The body's triple -/

set_option maxHeartbeats 4000000 in
/-- The body, run on whole buffers — the inputs' holding `x0 …`, the outputs' anything —, ends with the inputs' as they were and each
    output's at `out0_W` of the inputs: the loads read the buffers whole, the payloads are pure, the stores overwrite whole buffers. -/
theorem sound_kernel0 (c : Dev nD) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S128x256 .f32) (harg5 : arg5.IsWhole) (arg6 : Memref sig .tc .vmem S4096x256 .f32) (harg6 : arg6.IsWhole)
    (x0 : Vec F S4096x128 .f32) (x1 : Vec F S4096x128 .f32) (x2 : Vec F S128x256 .f32) (x3 : Vec F S1x256 .f32) (x4 : Vec F S128x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__combine0_kernel i arg1 harg1 arg2 harg2 arg3 harg3 arg4 harg4 arg5 harg5 arg6 harg6) K := by
  simp only [cc0__combine0_kernel_eq_skeleton]; unfold cc0__combine0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The region's proof data -/

/-- The arrays as the region finds them; after the body at point `t` each input buffer still at its block, each output buffer at
    `out0_W` of the input blocks; the invariant carries only the buffers no window stages and the generator register, untouched;
    nothing is owed; every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`: the invariant, the core's dues, each window's current buffer at what it holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's triple applies; the invariant and the dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation the launch theorems ask for, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealRegion1.lean ====
/-
  Region 1 of the program: the second layer's combine on one whole block, and its row-wise log-softmax: two outputs from one set of inputs.
  Stated at any float instance and at a parameter `V`, the buffer contents the region is entered with.
-/
import proofs.«113220_j42322607735218_1_alg».proof.Proof.Gen.KernelIdeal.Launch
import proofs.«113220_j42322607735218_1_alg».proof.Proof.Gen.KernelIdeal.Skeleton
import proofs.«113220_j42322607735218_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the kernel `cc1__combine1_kernel` on its grid, from the contents `V` the region is entered with -/

variable (V : (c : Dev nD) → (b : Ref sig .tc) → Buf (Elt F) ((c : Thread nD τ).loc b))

/-- Window `w`'s block at grid point `t`: the rectangle of its array, as the region finds the array, that the window's index map
    names at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds the window's block at every point, whether or not the block was copied in at that point:
    where it was not, the block index has not moved since the last copy. Window 0. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds the window's block at every point, whether or not the block was copied in at that point:
    where it was not, the block index has not moved since the last copy. Window 1. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds the window's block at every point, whether or not the block was copied in at that point:
    where it was not, the block index has not moved since the last copy. Window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds the window's block at every point, whether or not the block was copied in at that point:
    where it was not, the block index has not moved since the last copy. Window 3. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input window's buffer holds the window's block at every point, whether or not the block was copied in at that point:
    where it was not, the block index has not moved since the last copy. Window 4. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: every access is a whole buffer -/

abbrev r1_0 : Rect S4096x256 := Rect.unit (s := S4096x256) ![0, 0] S4096x256.size inb_S4096x256_S4096x256_0_0
abbrev r1_1 : Rect S256x128 := Rect.unit (s := S256x128) ![0, 0] S256x128.size inb_S256x128_S256x128_0_0
abbrev r1_2 : Rect S1x128 := Rect.unit (s := S1x128) ![0, 0] S1x128.size inb_S1x128_S1x128_0_0
abbrev r1_3 : Rect S4096x128 := Rect.unit (s := S4096x128) ![0, 0] S4096x128.size inb_S4096x128_S4096x128_0_0

/-! ## What the body leaves in each output buffer, as a function of the input blocks -/

/-- Output window 5's buffer after the body: its one store, of the whole buffer, of the payload `k1_pay1` of the loaded inputs. -/
def out1_5 (x0 : Vec F S4096x256 .f32) (x1 : Vec F S4096x256 .f32) (x2 : Vec F S256x128 .f32) (x3 : Vec F S1x128 .f32) (x4 : Vec F S256x128 .f32) : Vec F S4096x128 .f32 :=
  View.canon [⟨r1_3, k1_pay1 (View.ld x0 r1_0) (View.ld x1 r1_0) (View.ld x2 r1_1) (View.ld x4 r1_1) (View.ld x3 r1_2)⟩]

/-- The one store covers the buffer. -/
theorem cover1_5 (p0 : Vec F S4096x128 .f32) (y : S4096x128.Idx) :
    ∃ pc ∈ ([⟨r1_3, p0⟩] : List (View.Piece (Elt F) S4096x128 .f32)), y ∈ pc.1.set :=
  View.cover_of_tiled [⟨r1_3, p0⟩] S4096x128.size (by rfl) y

/-- Output window 6's buffer after the body: its one store, of the whole buffer, of the payload `k1_pay2` of the loaded inputs. -/
def out1_6 (x0 : Vec F S4096x256 .f32) (x1 : Vec F S4096x256 .f32) (x2 : Vec F S256x128 .f32) (x3 : Vec F S1x128 .f32) (x4 : Vec F S256x128 .f32) : Vec F S4096x128 .f32 :=
  View.canon [⟨r1_3, k1_pay2 (View.ld x0 r1_0) (View.ld x1 r1_0) (View.ld x2 r1_1) (View.ld x4 r1_1) (View.ld x3 r1_2)⟩]

/-- The one store covers the buffer. -/
theorem cover1_6 (p0 : Vec F S4096x128 .f32) (y : S4096x128.Idx) :
    ∃ pc ∈ ([⟨r1_3, p0⟩] : List (View.Piece (Elt F) S4096x128 .f32)), y ∈ pc.1.set :=
  View.cover_of_tiled [⟨r1_3, p0⟩] S4096x128.size (by rfl) y

/-! ## The body's triple -/

set_option maxHeartbeats 4000000 in
/-- The body, run on whole buffers — the inputs' holding `x0 …`, the outputs' anything —, ends with the inputs' as they were and each
    output's at `out1_W` of the inputs: the loads read the buffers whole, the payloads are pure, the stores overwrite whole buffers. -/
theorem sound_kernel1 (c : Dev nD) (E : Set ℕ) (i : grid1.Coords) (arg1 : Memref sig .tc .vmem S4096x256 .f32) (harg1 : arg1.IsWhole) (arg2 : Memref sig .tc .vmem S4096x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S256x128 .f32) (harg5 : arg5.IsWhole) (arg6 : Memref sig .tc .vmem S4096x128 .f32) (harg6 : arg6.IsWhole) (arg7 : Memref sig .tc .vmem S4096x128 .f32) (harg7 : arg7.IsWhole)
    (x0 : Vec F S4096x256 .f32) (x1 : Vec F S4096x256 .f32) (x2 : Vec F S256x128 .f32) (x3 : Vec F S1x128 .f32) (x4 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__combine1_kernel i arg1 harg1 arg2 harg2 arg3 harg3 arg4 harg4 arg5 harg5 arg6 harg6 arg7 harg7) K := by
  simp only [cc1__combine1_kernel_eq_skeleton]; unfold cc1__combine1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The region's proof data -/

/-- The arrays as the region finds them; after the body at point `t` each input buffer still at its block, each output buffer at
    `out1_W` of the input blocks; the invariant carries only the buffers no window stages and the generator register, untouched;
    nothing is owed; every array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`: the invariant, the core's dues, each window's current buffer at what it holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the input buffers hold their blocks, so the body's triple applies; the invariant and the dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation the launch theorems ask for, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRegion2.lean ====
/-
  Region 2 of the program: the inner-product decode: a 4 × 4 grid of 1024 × 1024 tiles, each the product of a row block with the transpose of another; both operands are read from one array.
  Stated at any float instance and at a parameter `V`, the buffer contents the region is entered with.
-/
import proofs.«113220_j42322607735218_1_alg».proof.Proof.Gen.KernelIdeal.Launch
import proofs.«113220_j42322607735218_1_alg».proof.Proof.Gen.KernelIdeal.Skeleton
import proofs.«113220_j42322607735218_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: the kernel `cc2__decode_kernel` on its grid, from the contents `V` the region is entered with -/

variable (V : (c : Dev nD) → (b : Ref sig .tc) → Buf (Elt F) ((c : Thread nD τ).loc b))

/-- Window `w`'s block at grid point `t`: the rectangle of its array, as the region finds the array, that the window's index map
    names at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds the window's block at every point, whether or not the block was copied in at that point:
    where it was not, the block index has not moved since the last copy. Window 0. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds the window's block at every point, whether or not the block was copied in at that point:
    where it was not, the block index has not moved since the last copy. Window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: every access is a whole buffer -/

abbrev r2_0 : Rect S1024x128 := Rect.unit (s := S1024x128) ![0, 0] S1024x128.size inb_S1024x128_S1024x128_0_0
abbrev r2_1 : Rect S1024x1024 := Rect.unit (s := S1024x1024) ![0, 0] S1024x1024.size inb_S1024x1024_S1024x1024_0_0

/-! ## What the body leaves in each output buffer, as a function of the input blocks -/

/-- Output window 2's buffer after the body: its one store, of the whole buffer, of the payload `k2_pay1` of the loaded inputs. -/
def out2_2 (x0 : Vec F S1024x128 .f32) (x1 : Vec F S1024x128 .f32) : Vec F S1024x1024 .f32 :=
  View.canon [⟨r2_1, k2_pay1 (View.ld x0 r2_0) (View.ld x1 r2_0)⟩]

/-- The one store covers the buffer. -/
theorem cover2_2 (p0 : Vec F S1024x1024 .f32) (y : S1024x1024.Idx) :
    ∃ pc ∈ ([⟨r2_1, p0⟩] : List (View.Piece (Elt F) S1024x1024 .f32)), y ∈ pc.1.set :=
  View.cover_of_tiled [⟨r2_1, p0⟩] S1024x1024.size (by rfl) y

/-! ## The body's triple -/

set_option maxHeartbeats 4000000 in
/-- The body, run on whole buffers — the inputs' holding `x0 …`, the outputs' anything —, ends with the inputs' as they were and each
    output's at `out2_W` of the inputs: the loads read the buffers whole, the payloads are pure, the stores overwrite whole buffers. -/
theorem sound_kernel2 (c : Dev nD) (E : Set ℕ) (i : grid2.Coords) (arg2 : Memref sig .tc .vmem S1024x128 .f32) (harg2 : arg2.IsWhole) (arg3 : Memref sig .tc .vmem S1024x128 .f32) (harg3 : arg3.IsWhole) (arg4 : Memref sig .tc .vmem S1024x1024 .f32) (harg4 : arg4.IsWhole)
    (x0 : Vec F S1024x128 .f32) (x1 : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The region's proof data -/

/-- The arrays as the region finds them; after the body at point `t` each input buffer still at its block, each output buffer at
    `out2_W` of the input blocks; the invariant carries only the buffers no window stages and the generator register, untouched;
    nothing is owed; the two input windows, which read one array, hold a half of it each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation at a generic point -/

/-- What the body is called with at point `t`: the invariant, the core's dues, each window's current buffer at what it holds, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and the dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation the launch theorems ask for, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealShared.lean ====
/-
  Region 2 reads ONE array through its two input windows. The launch hands a region each DISTINCT buffer behind its windows' arrays
  whole; the region's proof data hold the shared array once per window, a half share each. This module is the two entailments
  between the two readings: at entry the buffer is split into its left and right halves; at exit — an input array is never
  written, so both halves still hold the entry contents — the halves are joined, and the output array is taken at what the
  sixteen write-backs leave.
-/
import proofs.«113220_j42322607735218_1_alg».proof.Proof.IdealRegion2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ENTRY. A core's unscoped buffers at `V` are region 2's arrays at their entry contents — the shared input array as two half
    shares, the output array whole — beside the unscoped buffers that are no array of the region. -/
theorem arrays2_of_bufs (c : Dev nD) :
    (unscopedBufs c (V c) : sProp 𝕄) ⊢ iprop((dat2 V c).arrays (fun w => (dat2 V c).arrAt w 0) ∗ Pipeline.unscopedRest spec2 c (V c)) := by
  rw [Pipeline.unscopedBufs_split₀ cfgs 2 winFacts₀2.arr_unscoped c (V c)]
  refine sep_mono ?_ .rfl
  unfold Pipeline.arrBufs Dat.arrays
  rw [show (Finset.univ.image (Pipeline.arrRef (cfgs 2).spec) : Finset (Ref sig .tc)) = {main_v43_0, main_v44} from by decide,
      bigSep_insert (by decide), bigSep_singleton]
  show _ ⊢ bigSep (Finset.univ : Finset (Fin 3)) _
  rw [bigSep_W2]
  dsimp only
  rw [View.set_whole, View.set_whole]
  show iprop(((c : Thread nD τ).loc main_v43_0 ↦{fullShare} V c main_v43_0) ∗ ((c : Thread nD τ).loc main_v44 ↦{fullShare} V c main_v44))
    ⊢ iprop(((c : Thread nD τ).loc main_v43_0 ↦{fullShare.left} V c main_v43_0) ∗ ((c : Thread nD τ).loc main_v43_0 ↦{fullShare.right} V c main_v43_0)
        ∗ ((c : Thread nD τ).loc main_v44 ↦{fullShare} V c main_v44))
  iintro ⟨H0, H2⟩
  ihave H' := (pointsTo_share (PosShare.mem_left_op_right fullShare)).1 $$ H0
  icases H' with ⟨Hl, Hr⟩
  isplitl [Hl]; · iexact Hl
  isplitl [Hr]; · iexact Hr
  iexact H2

/-- EXIT. Region 2's arrays at their final contents, beside the unscoped buffers that are no array of it at `V`, are the core's
    unscoped buffers at any contents `V'` that has the output array at what the write-backs leave and every other buffer at `V`. -/
theorem bufs_of_arrays2 (c : Dev nD) (V' : (b : Ref sig .tc) → Buf (Elt F) ((c : Thread nD τ).loc b))
    (hout : V' main_v44 = (dat2 V c).arrAt 2 cfg2.N) (hrest : ∀ b, b ≠ main_v44 → V' b = V c b) :
    iprop((dat2 V c).arrays (fun w => (dat2 V c).arrAt w cfg2.N) ∗ Pipeline.unscopedRest spec2 c (V c)) ⊢ (unscopedBufs c V' : sProp 𝕄) := by
  rw [Pipeline.unscopedBufs_split₀ cfgs 2 winFacts₀2.arr_unscoped c V']
  refine sep_mono ?_ (Entails.of_eq ?_)
  · unfold Pipeline.arrBufs Dat.arrays
    rw [show (Finset.univ.image (Pipeline.arrRef (cfgs 2).spec) : Finset (Ref sig .tc)) = {main_v43_0, main_v44} from by decide,
        bigSep_insert (by decide), bigSep_singleton]
    show bigSep (Finset.univ : Finset (Fin 3)) _ ⊢ _
    rw [bigSep_W2]
    dsimp only
    rw [View.set_whole, View.set_whole, (dat2 V c).arrAt_in 0 rfl, (dat2 V c).arrAt_in 1 rfl, ← hout, hrest main_v43_0 (by decide)]
    show iprop(((c : Thread nD τ).loc main_v43_0 ↦{fullShare.left} V c main_v43_0) ∗ ((c : Thread nD τ).loc main_v43_0 ↦{fullShare.right} V c main_v43_0)
        ∗ ((c : Thread nD τ).loc main_v44 ↦{fullShare} V' main_v44))
      ⊢ iprop(((c : Thread nD τ).loc main_v43_0 ↦{fullShare} V c main_v43_0) ∗ ((c : Thread nD τ).loc main_v44 ↦{fullShare} V' main_v44))
    iintro ⟨Hl, Hr, H2⟩
    isplitl [Hl Hr]
    · iapply (pointsTo_share (PosShare.mem_left_op_right fullShare)).2
      isplitl [Hl]; · iexact Hl
      iexact Hr
    iexact H2
  · unfold Pipeline.unscopedRest
    refine bigSep_congr fun b hb => ?_
    rw [hrest b fun e => (Finset.mem_sdiff.mp hb).2 (Finset.mem_image.mpr ⟨2, Finset.mem_univ _, e ▸ rfl⟩)]

end Cert.KernelIdeal.Hand

end
-- ==== Proof.IdealRun.lean ====
/-
  The whole run of the program: the buffer contents at each boundary between a stretch of host operations and a kernel region,
  folded from the launch memory; the three regions as segments over the thread state "every unscoped buffer at the boundary's
  contents"; and the run itself — every weakly fair execution terminates, nothing faults, and every unscoped buffer ends at the
  last boundary's contents. The frame claim and the two results are read off that one statement.
  Region 2 reads ONE array through two input windows: at its entry the array's buffer is split into two half shares, one per
  window, and at its exit the halves — the inputs are never written — are joined again.
-/
import proofs.«113220_j42322607735218_1_alg».proof.Proof.IdealRegion0
import proofs.«113220_j42322607735218_1_alg».proof.Proof.IdealRegion1
import proofs.«113220_j42322607735218_1_alg».proof.Proof.IdealRegion2
import proofs.«113220_j42322607735218_1_alg».proof.Proof.IdealShared
import proofs.«113220_j42322607735218_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output with its write-backs in place), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, an output with its write-backs in place), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its output array with the sixteen tiles written back, every other buffer — the array its two input windows
    read among them — as entered. -/
def W5 (c : Dev nD) : Valuation τ sig (Elt F) :=
  Function.update (W4 m ρ c) (Proc.devRef .tc main_v44) ((dat2 (V4 m ρ) c).arrAt 2 cfg2.N)
theorem W5_out (c : Dev nD) : W5 m ρ c (Proc.devRef .tc main_v44) = (dat2 (V4 m ρ) c).arrAt 2 cfg2.N := by
  unfold W5; exact Function.update_self _ _ _
theorem W5_of_ne (c : Dev nD) (b : Ref sig .tc) (hb : b ≠ main_v44) : W5 m ρ c (Proc.devRef .tc b) = W4 m ρ c (Proc.devRef .tc b) := by
  unfold W5; exact Function.update_of_ne (StableHlo.devRef_ne_of_ne hb) _ _
abbrev V5 : (c : Dev nD) → (b : Ref sig .tc) → Buf (Elt F) ((c : Thread nD τ).loc b) := fun c b => W5 m ρ c b

/-! ### Every argument ends as launched: no host operation writes one, and no region's output array is one -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 4).trans (((dat0 (V1 m ρ) c).arrAt_in 4 rfl _).trans (A_eq0 (V1 m ρ) c 4))
    _ = W0 m ρ c (Proc.devRef .tc main_arg3) := StableHlo.after_of_writes_sub hostOps0 _ hostOps0_writes (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered with every unscoped buffer at `W1`, left with them at `W2`. Its arrays are taken out of
    the unscoped buffers at entry and put back at what the write-backs leave; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its arrays are taken out of
    the unscoped buffers at entry and put back at what the write-backs leave; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W4`, left with them at `W5`. The array its two input
    windows read is split into its two half shares at entry and joined at exit (`arrays2_of_bufs`, `bufs_of_arrays2`). -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit : (unscopedBufs c (V4 m ρ c) : sProp 𝕄)
        ⊢ iprop((pdats m ρ 2 c).arrays ((pdats m ρ 2 c).arrAt · 0) ∗ Pipeline.unscopedRest spec2 c (V4 m ρ c)) := arrays2_of_bufs (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N) ∗ Pipeline.unscopedRest spec2 c (V4 m ρ c))
        ⊢ (unscopedBufs c (V5 m ρ c) : sProp 𝕄) :=
      bufs_of_arrays2 (V4 m ρ) c (V5 m ρ c) (W5_out m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting, and in the
    final memory every unscoped buffer of every core holds the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c)⟩) (run_all m ρ)

end Cert.KernelIdeal.Hand

end
-- ==== Proof.LibAfterResultsCat.lean ====
/-
  Evaluating a straight-line host program's operations past a concatenation.

  What a buffer holds after a list of host operations is a fold; the library evaluates it in one rewriting pass, operation by operation.
  A concatenation takes its operands as a LIST of (shape, vector) pairs, and the pass does not rewrite under such pairs: whatever is
  looked up inside them stays a fold over all the earlier operations. Stated as ordinary functions of two or three vectors, a
  concatenation's operands are rewritten like any other's. The equations are definitional; the pass applies them on the way down,
  before it visits the operands.
-/
import Idealize.ShloMosaic.Lib.StableHlo.Run

noncomputable section

namespace Idealize.ShloMosaic.StableHlo

open Idealize.ShloMosaic

/-- A concatenation of two vectors as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- A concatenation of three vectors as a function of the three. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_triple {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

/-- The one-pass evaluation of an operation list's results, concatenations' operands included. -/
macro "after_results_cat" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓concatenate_pair, ↓concatenate_triple]))

/-- The operations of a function the program calls carry their values through casts along the equality of a buffer's type with
    the value's type; the two types are the same once the buffer is a literal, and the casts then go. To be run after
    `after_results_cat`, and on one call's operations at a time, over whatever the buffers held before: each cast
    removed is a rewrite inside the whole term, so the smaller the term around it the better. -/
macro "after_results_strip" : tactic =>
  `(tactic| (simp only [TRef.toBuf, TRef.ofBuf, cast_eq]))

end Idealize.ShloMosaic.StableHlo

end
-- ==== Proof.RefLink.lean ====
/-
  The reference's two results, as the run names them (the operations' composed terms of the arguments), are the last stages of the
  reference read one operation at a time: the composed term unfolds to the stage's definition.
-/
import proofs.«113220_j42322607735218_1_alg».proof.Proof.RefRun
import proofs.«113220_j42322607735218_1_alg».proof.Proof.RefRead

noncomputable section

namespace Cert.ReferenceIdeal.RefLink

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The first result's term is the log-softmax stage. -/
theorem val_main_v53_eq (m : (ℓ : Loc nD τ sig) → Buf (Elt F) ℓ) (c : Dev nD) :
    Cert.ReferenceIdeal.ValueP.res_main_v53 m c = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v53; rfl

/-- The second result's term is the product stage. -/
theorem val_main_v55_eq (m : (ℓ : Loc nD τ sig) → Buf (Elt F) ℓ) (c : Dev nD) :
    Cert.ReferenceIdeal.ValueP.res_main_v55 m c = val_main_v55 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.ValueP.res_main_v55; rfl

end Cert.ReferenceIdeal.RefLink

end
-- ==== Proof.PayloadAt.lean ====
/-
  The three kernel bodies' arithmetic, read at an index on the extended reals.
  There a change of float format and a shape cast to the same shape are the identity, a matrix product into the zero accumulator is
  the plain sum over the contracted axis, a lane reduction with `add` is the row's sum and one with `maximumf` from −∞ the row's
  maximum (the fold of `max` from ⊥). So, entry by entry:
    the first layer's payload   is max ((x₀·Wl + x₁·Wr) + b, 0),
    the second layer's          is (x₀·Wl + x₁·Wr) + b, and its log-softmax (z − rowmax z) − log Σ exp (z − rowmax z),
    the decode's                is zᵢ·zⱼᵀ, the transpose read as a swap of the two coordinates.
-/
import proofs.«113220_j42322607735218_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadAt

open Idealize.ShloMosaic Idealize.ShloMosaic.ValueIdx Cert.KernelIdeal Cert.KernelIdeal.Gen

/-! ### The 4096×128 by 128×256 product: operand indices, and the product into zero read at an index -/

/-- The left operand's row coordinate is the output's row. -/
theorem lhsA_0 (i : S4096x256.Idx) (c : dot_S4096x128_S128x256_S4096x256_1_0_0_1_n_n.contr.Idx) :
    (dot_S4096x128_S128x256_S4096x256_1_0_0_1_n_n.lhsIdx i c 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
/-- The left operand's column coordinate is the contraction coordinate. -/
theorem lhsA_1 (i : S4096x256.Idx) (c : dot_S4096x128_S128x256_S4096x256_1_0_0_1_n_n.contr.Idx) :
    (dot_S4096x128_S128x256_S4096x256_1_0_0_1_n_n.lhsIdx i c 1).val = (c ⟨0, by decide⟩).val :=
  dot_S4096x128_S128x256_S4096x256_1_0_0_1_n_n.lhsIdx_val_of_single rfl i c
/-- The right operand's row coordinate is the contraction coordinate. -/
theorem rhsA_0 (i : S4096x256.Idx) (c : dot_S4096x128_S128x256_S4096x256_1_0_0_1_n_n.contr.Idx) :
    (dot_S4096x128_S128x256_S4096x256_1_0_0_1_n_n.rhsIdx i c 0).val = (c ⟨0, by decide⟩).val :=
  dot_S4096x128_S128x256_S4096x256_1_0_0_1_n_n.rhsIdx_val_of_single rfl i c
/-- The right operand's column coordinate is the output's column. -/
theorem rhsA_1 (i : S4096x256.Idx) (c : dot_S4096x128_S128x256_S4096x256_1_0_0_1_n_n.contr.Idx) :
    (dot_S4096x128_S128x256_S4096x256_1_0_0_1_n_n.rhsIdx i c 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The matrix product accumulated into zero, at row `p` and column `q`: the sum over the inner coordinate. -/
theorem matmulA_at {φ₁ φ₂ : FTy} (x : FVec Ideal S4096x128 φ₁) (w : FVec Ideal S128x256 φ₂) (p : Fin 4096) (q : Fin 256) :
    matmul dot_S4096x128_S128x256_S4096x256_1_0_0_1_n_n none x w (constant S4096x256 .f32 0x00000000#32) (ix2 p q)
      = ∑ k : Fin 128, x (ix2 p k) * w (ix2 k q) := by
  simp only [matmul]
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p q) ((contrEquiv1 dot_S4096x128_S128x256_S4096x256_1_0_0_1_n_n 128 rfl rfl).symm k) = ix2 p k := funext fun a => Fin.ext (by
    match a with
    | ⟨0, _⟩ => exact lhsA_0 _ _
    | ⟨1, _⟩ => exact (lhsA_1 _ _).trans hk)
  have er : dot_S4096x128_S128x256_S4096x256_1_0_0_1_n_n.rhsIdx (ix2 p q) ((contrEquiv1 dot_S4096x128_S128x256_S4096x256_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ### The 4096×256 by 256×128 product: operand indices, and the product into zero read at an index -/

/-- The left operand's row coordinate is the output's row. -/
theorem lhsB_0 (i : S4096x128.Idx) (c : dot_S4096x256_S256x128_S4096x128_1_0_0_1_n_n.contr.Idx) :
    (dot_S4096x256_S256x128_S4096x128_1_0_0_1_n_n.lhsIdx i c 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
/-- The left operand's column coordinate is the contraction coordinate. -/
theorem lhsB_1 (i : S4096x128.Idx) (c : dot_S4096x256_S256x128_S4096x128_1_0_0_1_n_n.contr.Idx) :
    (dot_S4096x256_S256x128_S4096x128_1_0_0_1_n_n.lhsIdx i c 1).val = (c ⟨0, by decide⟩).val :=
  dot_S4096x256_S256x128_S4096x128_1_0_0_1_n_n.lhsIdx_val_of_single rfl i c
/-- The right operand's row coordinate is the contraction coordinate. -/
theorem rhsB_0 (i : S4096x128.Idx) (c : dot_S4096x256_S256x128_S4096x128_1_0_0_1_n_n.contr.Idx) :
    (dot_S4096x256_S256x128_S4096x128_1_0_0_1_n_n.rhsIdx i c 0).val = (c ⟨0, by decide⟩).val :=
  dot_S4096x256_S256x128_S4096x128_1_0_0_1_n_n.rhsIdx_val_of_single rfl i c
/-- The right operand's column coordinate is the output's column. -/
theorem rhsB_1 (i : S4096x128.Idx) (c : dot_S4096x256_S256x128_S4096x128_1_0_0_1_n_n.contr.Idx) :
    (dot_S4096x256_S256x128_S4096x128_1_0_0_1_n_n.rhsIdx i c 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The matrix product accumulated into zero, at row `p` and column `q`: the sum over the inner coordinate. -/
theorem matmulB_at {φ₁ φ₂ : FTy} (x : FVec Ideal S4096x256 φ₁) (w : FVec Ideal S256x128 φ₂) (p : Fin 4096) (q : Fin 128) :
    matmul dot_S4096x256_S256x128_S4096x128_1_0_0_1_n_n none x w (constant S4096x128 .f32 0x00000000#32) (ix2 p q)
      = ∑ k : Fin 256, x (ix2 p k) * w (ix2 k q) := by
  simp only [matmul]
  rw [Ideal.matmul_constant_zero_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 p q) ((contrEquiv1 dot_S4096x256_S256x128_S4096x128_1_0_0_1_n_n 256 rfl rfl).symm k) = ix2 p k := funext fun a => Fin.ext (by
    match a with
    | ⟨0, _⟩ => exact lhsB_0 _ _
    | ⟨1, _⟩ => exact (lhsB_1 _ _).trans hk)
  have er : dot_S4096x256_S256x128_S4096x128_1_0_0_1_n_n.rhsIdx (ix2 p q) ((contrEquiv1 dot_S4096x256_S256x128_S4096x128_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ### The 1024×128 by 128×1024 product: operand indices, and the product into zero read at an index -/

/-- The left operand's row coordinate is the output's row. -/
theorem lhsC_0 (i : S1024x1024.Idx) (c : dot_S1024x128_S128x1024_S1024x1024_1_0_0_1_n_n.contr.Idx) :
    (dot_S1024x128_S128x1024_S1024x1024_1_0_0_1_n_n.lhsIdx i c 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
/-- The left operand's column coordinate is the contraction coordinate. -/
theorem lhsC_1 (i : S1024x1024.Idx) (c : dot_S1024x128_S128x1024_S1024x1024_1_0_0_1_n_n.contr.Idx) :
    (dot_S1024x128_S128x1024_S1024x1024_1_0_0_1_n_n.lhsIdx i c 1).val = (c ⟨0, by decide⟩).val :=
  dot_S1024x128_S128x1024_S1024x1024_1_0_0_1_n_n.lhsIdx_val_of_single rfl i c
/-- The right operand's row coordinate is the contraction coordinate. -/
theorem rhsC_0 (i : S1024x1024.Idx) (c : dot_S1024x128_S128x1024_S1024x1024_1_0_0_1_n_n.contr.Idx) :
    (dot_S1024x128_S128x1024_S1024x1024_1_0_0_1_n_n.rhsIdx i c 0).val = (c ⟨0, by decide⟩).val :=
  dot_S1024x128_S128x1024_S1024x1024_1_0_0_1_n_n.rhsIdx_val_of_single rfl i c
/-- The right operand's column coordinate is the output's column. -/
theorem rhsC_1 (i : S1024x1024.Idx) (c : dot_S1024x128_S128x1024_S1024x1024_1_0_0_1_n_n.contr.Idx) :
    (dot_S1024x128_S128x1024_S1024x1024_1_0_0_1_n_n.rhsIdx i c 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The matrix product accumulated into zero, at row `p` and column `q`: the sum over the inner coordinate. -/
theorem matmulC_at {φ₁ φ₂ : FTy} (x : FVec Ideal S1024x128 φ₁) (w : FVec Ideal S128x1024 φ₂) (p : Fin 1024) (q : Fin 1024) :
    matmul dot_S1024x128_S128x1024_S1024x1024_1_0_0_1_n_n none x w (constant S1024x1024 .f32 0x00000000#32) (ix2 p q)
      = ∑ k : Fin 128, x (ix2 p k) * w (ix2 k q) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun a => Fin.ext (by
    match a with
    | ⟨0, _⟩ => exact lhsC_0 _ _
    | ⟨1, _⟩ => exact (lhsC_1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-- The first body's payload at row `p`, column `q`: the two products' sum plus the bias, clamped below at zero. -/
theorem k0_pay1_at (x0 x1 : Vec Ideal S4096x128 .f32) (wl wr : Vec Ideal S128x256 .f32) (b : Vec Ideal S1x256 .f32) (p : Fin 4096) (q : Fin 256) :
    k0_pay1 (F := Ideal) x0 x1 wl wr b (ix2 p q)
      = max (((∑ k : Fin 128, x0 (ix2 p k) * wl (ix2 k q)) + ∑ k : Fin 128, x1 (ix2 p k) * wr (ix2 k q)) + b (ix2 (0 : Fin 1) q)) 0 := by
  unfold k0_pay1
  simp only [shapeCast_self]
  rw [maximumf_apply, addf_apply, addf_apply, matmulA_at, matmulA_at, broadcastTo_1b_ab_apply, broadcast_apply]
  simp only [truncf_apply, Scalar.ofBits, Ideal.ofBits_def, Ideal.ofBits_zero_f32]

/-- The third body's payload at `(a, b)`: row `a` of the first operand against row `b` of the second (a product
    with the second operand transposed). -/
theorem k2_pay1_at (zi zj : Vec Ideal S1024x128 .f32) (a b : Fin 1024) :
    k2_pay1 (F := Ideal) zi zj (ix2 a b) = ∑ k : Fin 128, zi (ix2 a k) * zj (ix2 b k) := by
  unfold k2_pay1
  simp only [shapeCast_self]
  rw [matmulC_at]
  refine Finset.sum_congr rfl fun k _ => ?_
  rw [transpose_ix2_apply, truncf_apply, truncf_apply]

/-- The second body's first payload at row `p`, column `q`: the two products' sum plus the bias. -/
theorem k1_pay1_at (x0 x1 : Vec Ideal S4096x256 .f32) (wl wr : Vec Ideal S256x128 .f32) (b : Vec Ideal S1x128 .f32) (p : Fin 4096) (q : Fin 128) :
    k1_pay1 (F := Ideal) x0 x1 wl wr b (ix2 p q)
      = ((∑ k : Fin 256, x0 (ix2 p k) * wl (ix2 k q)) + ∑ k : Fin 256, x1 (ix2 p k) * wr (ix2 k q)) + b (ix2 (0 : Fin 1) q) := by
  unfold k1_pay1
  simp only [shapeCast_self]
  rw [addf_apply, addf_apply, matmulB_at, matmulB_at, broadcastTo_1b_ab_apply]
  simp only [truncf_apply]

/-! ### The row reductions of the second body: layout steps read at an index -/

/-- The row's maximum: the fold of `max` from `−∞` over the row's 128 entries. -/
def rowMax (z : (⟨2, ![4096, 128]⟩ : Shape).Idx → EReal) (p : Fin 4096) : EReal :=
  (Finset.univ : Finset (Fin 128)).fold max ⊥ (fun k => z (ix2 p k))

/-- The binary32 pattern of `−∞` denotes the extended real `⊥`. -/
theorem ofBits_negInf_f32 : Ideal.ofBits .f32 0xFF800000#32 = ⊥ := by simp [Ideal.ofBits, Ideal.ieee]

/-- A column `[4096, 1]` broadcast along rows to `[4096, 128]` reads, at `(p, c)`, the column's entry `p`. -/
theorem broadcastTo_col_apply {α : Type} (v : S4096x1.Idx → α) (h : S4096x1.Broadcasts S4096x128) (p : Fin 4096) (c : Fin 128) :
    broadcastTo S4096x128 v h (ix2 p c) = v (ix2 p (0 : Fin 1)) := by
  refine broadcastTo_apply v h (ix2 p c) (ix2 p (0 : Fin 1)) fun ax => ?_
  match ax with
  | ⟨0, _⟩ => show p.val = if (4096 : Nat) = 1 then 0 else p.val; rw [if_neg (by decide)]
  | ⟨1, _⟩ => show (0 : Nat) = if (1 : Nat) = 1 then 0 else c.val; rw [if_pos rfl]

/-- A vector `[4096]` cast to a column `[4096, 1]` reads, at `(p, u)`, the vector's entry `p`. -/
theorem shapeCast_col_apply {α : Type} (x : S4096.Idx → α) (h : S4096.ShapeCasts S4096x1) (p : Fin 4096) (u : Fin 1) :
    shapeCast S4096x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The index of row `p` with the reduced column coordinate `k` put back is `(p, k)`. -/
theorem lift_row (h : S4096x128.Reduces [1] S4096) (p : Fin 4096) (k : Fin 128) : h.lift (ix1 p) k = ix2 p k := by
  funext a
  match a with
  | ⟨0, _⟩ => rfl
  | ⟨1, _⟩ => rfl

/-- The row maximum the kernel takes (a one-axis maximum reduction from the pattern of `−∞`), at row `p`. -/
theorem rowMax_eq (z : FVec Ideal S4096x128 .f32) (h : S4096x128.Reduces [1] S4096) (hφ : FKind.Formats .f32)
    (hacc : (0xFF800000#32 : BitVec 32) = 0xFF800000#32) (p : Fin 4096) :
    multiReduction .maximumf [1] S4096 z 0xFF800000#32 h hφ hacc (ix1 p) = rowMax z p := by
  refine (Ideal.multiReduction_maximumf_single z 0xFF800000#32 h hφ hacc (ix1 p)).trans ?_
  show (Finset.univ : Finset (Fin 128)).fold max (Ideal.ofBits .f32 0xFF800000#32) (fun k => z (h.lift (ix1 p) k)) = _
  rw [ofBits_negInf_f32]
  exact congrArg (fun f : Fin 128 → EReal => (Finset.univ : Finset (Fin 128)).fold max ⊥ f)
    (funext fun k => congrArg z (lift_row h p k))

/-- The row sum the kernel takes (a one-axis add reduction from zero), at row `p`. -/
theorem rowSum_eq (y : FVec Ideal S4096x128 .f32) (h : S4096x128.Reduces [1] S4096) (hφ : FKind.Formats .f32)
    (hacc : (0x00000000#32 : BitVec 32) = 0x00000000#32) (p : Fin 4096) :
    multiReduction .add [1] S4096 y 0x00000000#32 h hφ hacc (ix1 p) = ∑ k : Fin 128, y (ix2 p k) := by
  refine (Ideal.multiReduction_add_single y 0x00000000#32 h hφ hacc (ix1 p)).trans ?_
  show ∑ k : Fin 128, y (h.lift (ix1 p) k) = _
  exact Finset.sum_congr rfl fun k _ => congrArg y (lift_row h p k)

/-- The elementwise exponential and logarithm at an index. -/
theorem exp_at {s : Shape} {φ : FTy} (v : FVec Ideal s φ) (i : s.Idx) : exp v i = Ideal.exp (v i) := rfl
theorem log_at {s : Shape} {φ : FTy} (v : FVec Ideal s φ) (i : s.Idx) : log v i = Ideal.log (v i) := rfl

/-- The second body's second payload at row `p`, column `q`: the first payload less its row maximum, less the
    logarithm of the row's sum of exponentials of the same differences (a row-wise log-softmax). -/
theorem k1_pay2_at (x0 x1 : Vec Ideal S4096x256 .f32) (wl wr : Vec Ideal S256x128 .f32) (b : Vec Ideal S1x128 .f32) (p : Fin 4096) (q : Fin 128) :
    k1_pay2 (F := Ideal) x0 x1 wl wr b (ix2 p q)
      = (k1_pay1 (F := Ideal) x0 x1 wl wr b (ix2 p q) - rowMax (k1_pay1 (F := Ideal) x0 x1 wl wr b) p)
          - Ideal.log (∑ k : Fin 128, Ideal.exp (k1_pay1 (F := Ideal) x0 x1 wl wr b (ix2 p k) - rowMax (k1_pay1 (F := Ideal) x0 x1 wl wr b) p)) := by
  unfold k1_pay2
  generalize k1_pay1 (F := Ideal) x0 x1 wl wr b = z
  rw [subf_apply, subf_apply, broadcastTo_col_apply, broadcastTo_col_apply, log_at, shapeCast_col_apply,
    shapeCast_col_apply, rowSum_eq, rowMax_eq]
  refine congrArg (fun t => z (ix2 p q) - rowMax z p - Ideal.log t) (Finset.sum_congr rfl fun k _ => ?_)
  rw [exp_at, subf_apply, broadcastTo_col_apply, shapeCast_col_apply, rowMax_eq]

end Cert.KernelIdeal.PayloadAt

end
-- ==== Proof.IdealArrays.lean ====
/-
  From a region's blocks to its whole output array, on the extended reals.
  A region writes back, at each grid point, the block its body left: the payload of that point's input blocks. The input blocks are
  rectangles of the arrays the region is entered with — block coordinate = block index × block size + coordinate inside the block —,
  the output blocks tile the output array, and each is the restriction of ONE function of the entry arrays to its rectangle. Hence
  the array after all write-backs is that function:
    region 0 (ten blocks of 4096 rows)     h = max ((mean₀·Wl₀ + x·Wr₀) + b₀, 0) row by row,
    region 1 (one block)                   z = (mean₁·Wl₁ + h·Wr₁) + b₁ and its row-wise log-softmax,
    region 2 (4 × 4 tiles of 1024 × 1024)  z·zᵀ, tile (i, j) from row blocks i and j of the one array z.
-/
import proofs.«113220_j42322607735218_1_alg».proof.Proof.IdealRegion0
import proofs.«113220_j42322607735218_1_alg».proof.Proof.IdealRegion1
import proofs.«113220_j42322607735218_1_alg».proof.Proof.IdealRegion2
import proofs.«113220_j42322607735218_1_alg».proof.Proof.PayloadAt
import Idealize.ShloMosaic.Lib.Pipeline.Value
import Idealize.ShloMosaic.Lib.ValueIdx

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Hand Cert.KernelIdeal.PayloadAt Idealize.ShloMosaic.ValueIdx

variable (V : (c : Dev nD) → (b : Ref sig .tc) → Buf (Elt Ideal) ((c : Thread nD τ).loc b))

/-- A buffer's contents read as a function on the indices of its literal shape, with extended-real values. -/
abbrev onIdx (s : Shape) (f : s.Idx → EReal) : s.Idx → EReal := f

/-- The zero offsets of a whole-buffer access. -/
theorem hz : (![0, 0] : Fin 2 → Nat) = fun _ => 0 := funext fun a => by fin_cases a <;> rfl

/-! ## Region 2: the 4096 × 4096 array of inner products of rows -/

/-- The array of inner products of the rows of `Z`: entry `(r, s)` is row `r` against row `s`. -/
def prodOf (Z : S4096x128.Idx → EReal) : S4096x4096.Idx → EReal :=
  fun i => ∑ k : Fin 128, Z (ix2 (⟨(i 0).val, idx2_lt0 i⟩ : Fin 4096) k) * Z (ix2 (⟨(i 1).val, idx2_lt1 i⟩ : Fin 4096) k)

/-- The block indices over the 4 × 4 grid: the first input moves with the output's row block, the second with its column
    block, both at column block zero; the output's block indices stay below 4. -/
theorem idx_facts2 : ∀ t : Fin cfg2.N,
    win2_0.index t (0 : Fin 2) = win2_2.index t (0 : Fin 2) ∧ win2_0.index t (1 : Fin 2) = 0
    ∧ win2_1.index t (0 : Fin 2) = win2_2.index t (1 : Fin 2) ∧ win2_1.index t (1 : Fin 2) = 0
    ∧ win2_2.index t (0 : Fin 2) ≤ 3 ∧ win2_2.index t (1 : Fin 2) ≤ 3 :=
  (by decide +kernel : ∀ t : Fin grid2.N, _)

/-- Every tile of the 4 × 4 tiling is some grid point's. -/
theorem idx_onto2 : ∀ (q0 q1 : Fin 4), ∃ t : Fin cfg2.N, win2_2.index t = ![q0.val, q1.val] :=
  (by decide +kernel : ∀ (q0 q1 : Fin 4), ∃ t : Fin grid2.N, win2_2.index t = ![q0.val, q1.val])

/-- One tile: when the two loaded blocks are rows `bi·1024 …` and `bj·1024 …` of `Z`, the payload at `y` is the
    inner-product array at the index `i` with coordinates `bi·1024 + y₀`, `bj·1024 + y₁`. -/
theorem tile_eq (x0 x1 : Vec Ideal S1024x128 .f32) (Z : S4096x128.Idx → EReal) (bi bj : Nat)
    (h0 : ∀ (x : S1024x128.Idx) (i : S4096x128.Idx), (i 0).val = bi * 1024 + (x 0).val → (i 1).val = (x 1).val → x0 x = Z i)
    (h1 : ∀ (x : S1024x128.Idx) (i : S4096x128.Idx), (i 0).val = bj * 1024 + (x 0).val → (i 1).val = (x 1).val → x1 x = Z i)
    (a b : Fin 1024) (i : S4096x4096.Idx) (hi0 : (i 0).val = bi * 1024 + a.val) (hi1 : (i 1).val = bj * 1024 + b.val) :
    k2_pay1 (F := Ideal) x0 x1 (ix2 a b) = prodOf Z i := by
  rw [k2_pay1_at]
  unfold prodOf
  refine Finset.sum_congr rfl fun k _ => ?_
  rw [h0 (ix2 a k) (ix2 (⟨(i 0).val, idx2_lt0 i⟩ : Fin 4096) k) hi0 rfl,
    h1 (ix2 b k) (ix2 (⟨(i 1).val, idx2_lt1 i⟩ : Fin 4096) k) hi1 rfl]

/-- Input window 0's block at point `t`, read at `x`: the array at the index `i` the block's rectangle names. -/
theorem iblk2_0_apply (c : Dev nD) (t : Fin cfg2.N) (x : S1024x128.Idx) (i : S4096x128.Idx)
    (h0 : (i 0).val = win2_0.index t (0 : Fin 2) * 1024 + (x 0).val) (h1 : (i 1).val = win2_0.index t (1 : Fin 2) * 128 + (x 1).val) :
    (iblk2 V c 0 t : Vec Ideal S1024x128 .f32) x = (V c main_v43_0 : S4096x128.Idx → EReal) i := by
  unfold iblk2
  rw [View.read_apply]
  show V c main_v43_0 _ = V c main_v43_0 _
  congr 1
  funext a
  apply Fin.ext
  match a with
  | ⟨0, _⟩ => show win2_0.index t (0 : Fin 2) * 1024 + 1 * (x 0).val = (i 0).val; omega
  | ⟨1, _⟩ => show win2_0.index t (1 : Fin 2) * 128 + 1 * (x 1).val = (i 1).val; omega

/-- Input window 1's block likewise. -/
theorem iblk2_1_apply (c : Dev nD) (t : Fin cfg2.N) (x : S1024x128.Idx) (i : S4096x128.Idx)
    (h0 : (i 0).val = win2_1.index t (0 : Fin 2) * 1024 + (x 0).val) (h1 : (i 1).val = win2_1.index t (1 : Fin 2) * 128 + (x 1).val) :
    (iblk2 V c 1 t : Vec Ideal S1024x128 .f32) x = (V c main_v43_0 : S4096x128.Idx → EReal) i := by
  unfold iblk2
  rw [View.read_apply]
  show V c main_v43_0 _ = V c main_v43_0 _
  congr 1
  funext a
  apply Fin.ext
  match a with
  | ⟨0, _⟩ => show win2_1.index t (0 : Fin 2) * 1024 + 1 * (x 0).val = (i 0).val; omega
  | ⟨1, _⟩ => show win2_1.index t (1 : Fin 2) * 128 + 1 * (x 1).val = (i 1).val; omega

/-- What point `t` writes back is block `t` of the inner-product array of the array both inputs read. -/
theorem flushed2_eq (c : Dev nD) (t : Fin cfg2.N) :
    (dat2 V c).flushed 2 t = ((cfg2.win 2).blk t).view.read (Elt Ideal) (prodOf (V c main_v43_0)) := by
  show (cfg2.win 2).cut (grid2.coords t) ((dat2 V c).after 2 t) = _
  rw [after2_2]
  unfold out2_2
  rw [View.canon_unit_zero hz]
  simp only [View.ld_unit_zero (S := S1024x128) hz]
  obtain ⟨e0, e1, e2, e3, e4, e5⟩ := idx_facts2 t
  funext j
  have hj0 : (j 0).val < 1024 := (j 0).isLt
  have hj1 : (j 1).val < 1024 := (j 1).isLt
  have hx : (cfg2.win 2).xinj (grid2.coords t) j = ix2 (⟨(j 0).val, hj0⟩ : Fin 1024) (⟨(j 1).val, hj1⟩ : Fin 1024) :=
    funext fun a => match a with | ⟨0, _⟩ => rfl | ⟨1, _⟩ => rfl
  refine (congrArg (k2_pay1 (F := Ideal) (iblk2 V c 0 t) (iblk2 V c 1 t)) hx).trans ?_
  show k2_pay1 (F := Ideal) (iblk2 V c 0 t) (iblk2 V c 1 t) (ix2 (⟨(j 0).val, hj0⟩ : Fin 1024) (⟨(j 1).val, hj1⟩ : Fin 1024))
    = prodOf (V c main_v43_0) (((cfg2.win 2).blk t).view.emb j)
  refine tile_eq (iblk2 V c 0 t) (iblk2 V c 1 t) (V c main_v43_0) (win2_2.index t (0 : Fin 2)) (win2_2.index t (1 : Fin 2))
    (fun x i h0 h1 => iblk2_0_apply V c t x i (by rw [e0]; exact h0) (by rw [e1]; omega))
    (fun x i h0 h1 => iblk2_1_apply V c t x i (by rw [e2]; exact h0) (by rw [e3]; omega)) _ _ _ ?_ ?_
  · show win2_2.index t (0 : Fin 2) * 1024 + 1 * (j 0).val = win2_2.index t (0 : Fin 2) * 1024 + (j 0).val; omega
  · show win2_2.index t (1 : Fin 2) * 1024 + 1 * (j 1).val = win2_2.index t (1 : Fin 2) * 1024 + (j 1).val; omega

/-- An index of the array is in point `t`'s tile iff each coordinate is in the tile's range on its axis. -/
theorem mem_blk2 (t : Fin cfg2.N) (i : S4096x4096.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v44).slice (win2_2.rect t)).set ↔ _
  rw [View.set_slice_whole, Rect.mem_set_unit]
  exact Iff.rfl

/-- Every index of the array is in some point's tile: the point whose tile indices are the coordinates' quotients by 1024. -/
theorem cover2 (i : S4096x4096.Idx) : ∃ t : Fin cfg2.N, (cfg2.win 2).flush t = true ∧ i ∈ ((cfg2.win 2).blk t).view.set := by
  have hi0 : (i 0).val < 4096 := (i 0).isLt
  have hi1 : (i 1).val < 4096 := (i 1).isLt
  obtain ⟨t, ht⟩ := idx_onto2 ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The output array after all write-backs is the inner-product array. -/
theorem final2 (c : Dev nD) : (dat2 V c).arrAt 2 cfg2.N = prodOf (V c main_v43_0) :=
  (dat2 V c).arrAt_eq_of_cover 2 (prodOf (V c main_v43_0)) (fun t _ => flushed2_eq V c t) (cover2)

/-- Region 2's output at `(r, s)`: row `r` against row `s` of the array both inputs read. -/
theorem prod_arr (c : Dev nD) (r s : Fin 4096) :
    onIdx S4096x4096 ((dat2 V c).arrAt 2 cfg2.N) (ix2 r s)
      = ∑ k : Fin 128, onIdx S4096x128 (V c main_v43_0) (ix2 r k) * onIdx S4096x128 (V c main_v43_0) (ix2 s k) :=
  (congrFun (final2 V c) (ix2 r s)).trans rfl

/-! ## Region 1: one grid point, every window's block its whole array -/

/-- Every window's block index at the one grid point is zero on both axes. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The grid has a point. -/
theorem pt1 : ∃ t : Fin cfg1.N, t.val = 0 := (by decide +kernel : ∃ t : Fin grid1.N, t.val = 0)

/-- Input window 0's block is its whole array. -/
theorem iblk1_0_eq (c : Dev nD) (t : Fin cfg1.N) :
    (iblk1 V c 0 t : Vec Ideal S4096x256 .f32) = (V c main_v40 : S4096x256.Idx → EReal) := by
  obtain ⟨e0, e1, _, _, _, _, _, _, _, _, _, _, _, _⟩ := idx_facts1 t
  funext x
  unfold iblk1
  show V c main_v40 (((cfg1.win 0).blk t).view.emb x) = V c main_v40 x
  congr 1
  funext a
  apply Fin.ext
  match a with
  | ⟨0, _⟩ => show win1_0.index t (0 : Fin 2) * 4096 + 1 * (x 0).val = (x 0).val; omega
  | ⟨1, _⟩ => show win1_0.index t (1 : Fin 2) * 256 + 1 * (x 1).val = (x 1).val; omega

/-- Input window 1's block is its whole array. -/
theorem iblk1_1_eq (c : Dev nD) (t : Fin cfg1.N) :
    (iblk1 V c 1 t : Vec Ideal S4096x256 .f32) = (V c main_v41 : S4096x256.Idx → EReal) := by
  obtain ⟨_, _, e0, e1, _, _, _, _, _, _, _, _, _, _⟩ := idx_facts1 t
  funext x
  unfold iblk1
  show V c main_v41 (((cfg1.win 1).blk t).view.emb x) = V c main_v41 x
  congr 1
  funext a
  apply Fin.ext
  match a with
  | ⟨0, _⟩ => show win1_1.index t (0 : Fin 2) * 4096 + 1 * (x 0).val = (x 0).val; omega
  | ⟨1, _⟩ => show win1_1.index t (1 : Fin 2) * 256 + 1 * (x 1).val = (x 1).val; omega

/-- Input window 2's block is its whole array. -/
theorem iblk1_2_eq (c : Dev nD) (t : Fin cfg1.N) :
    (iblk1 V c 2 t : Vec Ideal S256x128 .f32) = (V c main_arg4 : S256x128.Idx → EReal) := by
  obtain ⟨_, _, _, _, e0, e1, _, _, _, _, _, _, _, _⟩ := idx_facts1 t
  funext x
  unfold iblk1
  show V c main_arg4 (((cfg1.win 2).blk t).view.emb x) = V c main_arg4 x
  congr 1
  funext a
  apply Fin.ext
  match a with
  | ⟨0, _⟩ => show win1_2.index t (0 : Fin 2) * 256 + 1 * (x 0).val = (x 0).val; omega
  | ⟨1, _⟩ => show win1_2.index t (1 : Fin 2) * 128 + 1 * (x 1).val = (x 1).val; omega

/-- Input window 3's block is its whole array. -/
theorem iblk1_3_eq (c : Dev nD) (t : Fin cfg1.N) :
    (iblk1 V c 3 t : Vec Ideal S1x128 .f32) = (V c main_v42 : S1x128.Idx → EReal) := by
  obtain ⟨_, _, _, _, _, _, e0, e1, _, _, _, _, _, _⟩ := idx_facts1 t
  funext x
  unfold iblk1
  show V c main_v42 (((cfg1.win 3).blk t).view.emb x) = V c main_v42 x
  congr 1
  funext a
  apply Fin.ext
  match a with
  | ⟨0, _⟩ => show win1_3.index t (0 : Fin 2) * 1 + 1 * (x 0).val = (x 0).val; omega
  | ⟨1, _⟩ => show win1_3.index t (1 : Fin 2) * 128 + 1 * (x 1).val = (x 1).val; omega

/-- Input window 4's block is its whole array. -/
theorem iblk1_4_eq (c : Dev nD) (t : Fin cfg1.N) :
    (iblk1 V c 4 t : Vec Ideal S256x128 .f32) = (V c main_arg6 : S256x128.Idx → EReal) := by
  obtain ⟨_, _, _, _, _, _, _, _, e0, e1, _, _, _, _⟩ := idx_facts1 t
  funext x
  unfold iblk1
  show V c main_arg6 (((cfg1.win 4).blk t).view.emb x) = V c main_arg6 x
  congr 1
  funext a
  apply Fin.ext
  match a with
  | ⟨0, _⟩ => show win1_4.index t (0 : Fin 2) * 256 + 1 * (x 0).val = (x 0).val; omega
  | ⟨1, _⟩ => show win1_4.index t (1 : Fin 2) * 128 + 1 * (x 1).val = (x 1).val; omega

/-- What the one point writes back through output window 5 is the payload of the whole input arrays, read through the
    window's block. -/
theorem flushed1_5_eq (c : Dev nD) (t : Fin cfg1.N) :
    (dat1 V c).flushed 5 t = ((cfg1.win 5).blk t).view.read (Elt Ideal)
      (k1_pay1 (F := Ideal) (V c main_v40) (V c main_v41) (V c main_arg4) (V c main_arg6) (V c main_v42)) := by
  show (cfg1.win 5).cut (grid1.coords t) ((dat1 V c).after 5 t) = _
  rw [after1_5]
  unfold out1_5
  rw [View.canon_unit_zero hz]
  simp only [View.ld_unit_zero (S := S4096x256) hz, View.ld_unit_zero (S := S256x128) hz, View.ld_unit_zero (S := S1x128) hz]
  rw [iblk1_0_eq, iblk1_1_eq, iblk1_2_eq, iblk1_3_eq, iblk1_4_eq]
  obtain ⟨_, _, _, _, _, _, _, _, _, _, e0, e1, _, _⟩ := idx_facts1 t
  funext j
  show k1_pay1 (F := Ideal) (V c main_v40) (V c main_v41) (V c main_arg4) (V c main_arg6) (V c main_v42) ((cfg1.win 5).xinj (grid1.coords t) j)
    = k1_pay1 (F := Ideal) (V c main_v40) (V c main_v41) (V c main_arg4) (V c main_arg6) (V c main_v42) (((cfg1.win 5).blk t).view.emb j)
  congr 1
  funext a
  apply Fin.ext
  match a with
  | ⟨0, _⟩ => show (j 0).val = win1_5.index t (0 : Fin 2) * 4096 + 1 * (j 0).val; omega
  | ⟨1, _⟩ => show (j 1).val = win1_5.index t (1 : Fin 2) * 128 + 1 * (j 1).val; omega

/-- An index of the array is in the point's block iff each coordinate is in the block's range on its axis. -/
theorem mem_blk1_5 (t : Fin cfg1.N) (i : S4096x128.Idx) :
    i ∈ ((cfg1.win 5).blk t).view.set ↔ ∀ a : Fin 2, win1_5.index t a * S4096x128.size a ≤ (i a).val ∧ (i a).val < win1_5.index t a * S4096x128.size a + S4096x128.size a := by
  show i ∈ ((View.whole main_v43_0).slice (win1_5.rect t)).set ↔ _
  rw [View.set_slice_whole, Rect.mem_set_unit]
  exact Iff.rfl

/-- The one point's block covers the array. -/
theorem cover1_5_arr (i : S4096x128.Idx) : ∃ t : Fin cfg1.N, (cfg1.win 5).flush t = true ∧ i ∈ ((cfg1.win 5).blk t).view.set := by
  have hi0 : (i 0).val < 4096 := (i 0).isLt
  have hi1 : (i 1).val < 128 := (i 1).isLt
  obtain ⟨t, _⟩ := pt1
  obtain ⟨_, _, _, _, _, _, _, _, _, _, e0, e1, _, _⟩ := idx_facts1 t
  refine ⟨t, flush1_5 t, ?_⟩
  rw [mem_blk1_5]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 128 ≤ (i 1).val ∧ (i 1).val < win1_5.index t (1 : Fin 2) * 128 + 128; omega

/-- Output window 5's array after the write-back is the payload of the whole input arrays. -/
theorem final1_5 (c : Dev nD) : (dat1 V c).arrAt 5 cfg1.N
    = k1_pay1 (F := Ideal) (V c main_v40) (V c main_v41) (V c main_arg4) (V c main_arg6) (V c main_v42) :=
  (dat1 V c).arrAt_eq_of_cover 5 _ (fun t _ => flushed1_5_eq V c t) cover1_5_arr

/-- What the one point writes back through output window 6 is the payload of the whole input arrays, read through the
    window's block. -/
theorem flushed1_6_eq (c : Dev nD) (t : Fin cfg1.N) :
    (dat1 V c).flushed 6 t = ((cfg1.win 6).blk t).view.read (Elt Ideal)
      (k1_pay2 (F := Ideal) (V c main_v40) (V c main_v41) (V c main_arg4) (V c main_arg6) (V c main_v42)) := by
  show (cfg1.win 6).cut (grid1.coords t) ((dat1 V c).after 6 t) = _
  rw [after1_6]
  unfold out1_6
  rw [View.canon_unit_zero hz]
  simp only [View.ld_unit_zero (S := S4096x256) hz, View.ld_unit_zero (S := S256x128) hz, View.ld_unit_zero (S := S1x128) hz]
  rw [iblk1_0_eq, iblk1_1_eq, iblk1_2_eq, iblk1_3_eq, iblk1_4_eq]
  obtain ⟨_, _, _, _, _, _, _, _, _, _, _, _, e0, e1⟩ := idx_facts1 t
  funext j
  show k1_pay2 (F := Ideal) (V c main_v40) (V c main_v41) (V c main_arg4) (V c main_arg6) (V c main_v42) ((cfg1.win 6).xinj (grid1.coords t) j)
    = k1_pay2 (F := Ideal) (V c main_v40) (V c main_v41) (V c main_arg4) (V c main_arg6) (V c main_v42) (((cfg1.win 6).blk t).view.emb j)
  congr 1
  funext a
  apply Fin.ext
  match a with
  | ⟨0, _⟩ => show (j 0).val = win1_6.index t (0 : Fin 2) * 4096 + 1 * (j 0).val; omega
  | ⟨1, _⟩ => show (j 1).val = win1_6.index t (1 : Fin 2) * 128 + 1 * (j 1).val; omega

/-- An index of the array is in the point's block iff each coordinate is in the block's range on its axis. -/
theorem mem_blk1_6 (t : Fin cfg1.N) (i : S4096x128.Idx) :
    i ∈ ((cfg1.win 6).blk t).view.set ↔ ∀ a : Fin 2, win1_6.index t a * S4096x128.size a ≤ (i a).val ∧ (i a).val < win1_6.index t a * S4096x128.size a + S4096x128.size a := by
  show i ∈ ((View.whole main_v43_1).slice (win1_6.rect t)).set ↔ _
  rw [View.set_slice_whole, Rect.mem_set_unit]
  exact Iff.rfl

/-- The one point's block covers the array. -/
theorem cover1_6_arr (i : S4096x128.Idx) : ∃ t : Fin cfg1.N, (cfg1.win 6).flush t = true ∧ i ∈ ((cfg1.win 6).blk t).view.set := by
  have hi0 : (i 0).val < 4096 := (i 0).isLt
  have hi1 : (i 1).val < 128 := (i 1).isLt
  obtain ⟨t, _⟩ := pt1
  obtain ⟨_, _, _, _, _, _, _, _, _, _, _, _, e0, e1⟩ := idx_facts1 t
  refine ⟨t, flush1_6 t, ?_⟩
  rw [mem_blk1_6]
  intro a
  match a with
  | ⟨0, _⟩ => show win1_6.index t (0 : Fin 2) * 4096 ≤ (i 0).val ∧ (i 0).val < win1_6.index t (0 : Fin 2) * 4096 + 4096; omega
  | ⟨1, _⟩ => show win1_6.index t (1 : Fin 2) * 128 ≤ (i 1).val ∧ (i 1).val < win1_6.index t (1 : Fin 2) * 128 + 128; omega

/-- Output window 6's array after the write-back is the payload of the whole input arrays. -/
theorem final1_6 (c : Dev nD) : (dat1 V c).arrAt 6 cfg1.N
    = k1_pay2 (F := Ideal) (V c main_v40) (V c main_v41) (V c main_arg4) (V c main_arg6) (V c main_v42) :=
  (dat1 V c).arrAt_eq_of_cover 6 _ (fun t _ => flushed1_6_eq V c t) cover1_6_arr

/-- Region 1's first output at `(r, q)`: the two products' sum plus the bias. -/
theorem z_arr (c : Dev nD) (r : Fin 4096) (q : Fin 128) :
    onIdx S4096x128 ((dat1 V c).arrAt 5 cfg1.N) (ix2 r q)
      = ((∑ k : Fin 256, onIdx S4096x256 (V c main_v40) (ix2 r k) * onIdx S256x128 (V c main_arg4) (ix2 k q))
          + ∑ k : Fin 256, onIdx S4096x256 (V c main_v41) (ix2 r k) * onIdx S256x128 (V c main_arg6) (ix2 k q))
        + onIdx S1x128 (V c main_v42) (ix2 (0 : Fin 1) q) :=
  (congrFun (final1_5 V c) (ix2 r q)).trans (k1_pay1_at (V c main_v40) (V c main_v41) (V c main_arg4) (V c main_arg6) (V c main_v42) r q)

/-- Region 1's second output at `(r, q)`, in terms of the first output `Z`: `Z` less its row maximum, less the logarithm of
    the row's sum of exponentials of the same differences. -/
theorem logp_arr (c : Dev nD) (r : Fin 4096) (q : Fin 128) :
    onIdx S4096x128 ((dat1 V c).arrAt 6 cfg1.N) (ix2 r q)
      = (onIdx S4096x128 ((dat1 V c).arrAt 5 cfg1.N) (ix2 r q) - rowMax (onIdx S4096x128 ((dat1 V c).arrAt 5 cfg1.N)) r)
          - Ideal.log (∑ k : Fin 128, Ideal.exp (onIdx S4096x128 ((dat1 V c).arrAt 5 cfg1.N) (ix2 r k)
              - rowMax (onIdx S4096x128 ((dat1 V c).arrAt 5 cfg1.N)) r)) := by
  rw [final1_5 V c]
  exact (congrFun (final1_6 V c) (ix2 r q)).trans
    (k1_pay2_at (V c main_v40) (V c main_v41) (V c main_arg4) (V c main_arg6) (V c main_v42) r q)

/-! ## Region 0: ten row blocks of 4096 rows -/

/-- The combined array: at `(r, q)`, the two products' sum plus the bias, clamped below at zero. -/
def hOf (A0 A1 : S40960x128.Idx → EReal) (W0 W1 : S128x256.Idx → EReal) (B : S1x256.Idx → EReal) : S40960x256.Idx → EReal :=
  fun i => max (((∑ k : Fin 128, A0 (ix2 (⟨(i 0).val, idx2_lt0 i⟩ : Fin 40960) k) * W0 (ix2 k (⟨(i 1).val, idx2_lt1 i⟩ : Fin 256)))
      + ∑ k : Fin 128, A1 (ix2 (⟨(i 0).val, idx2_lt0 i⟩ : Fin 40960) k) * W1 (ix2 k (⟨(i 1).val, idx2_lt1 i⟩ : Fin 256)))
    + B (ix2 (0 : Fin 1) (⟨(i 1).val, idx2_lt1 i⟩ : Fin 256))) 0

/-- The block indices over the ten grid points: the two row-block inputs move with the output's row block at column block
    zero; the weight and bias windows stay at block zero; the output's row block index stays below 10, its column block is zero. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block is some grid point's. -/
theorem idx_onto0 : ∀ q0 : Fin 10, ∃ t : Fin cfg0.N, win0_5.index t = ![q0.val, 0] :=
  (by decide +kernel : ∀ q0 : Fin 10, ∃ t : Fin grid0.N, win0_5.index t = ![q0.val, 0])

/-- One row block: when the two loaded blocks are rows `bi·4096 …` of `A0` and `A1`, the payload at `(a, q)` is the
    combined array at the index `i` with coordinates `bi·4096 + a`, `q`. -/
theorem rows_eq (x0 x1 : Vec Ideal S4096x128 .f32) (A0 A1 : S40960x128.Idx → EReal) (W0 W1 : Vec Ideal S128x256 .f32)
    (B : Vec Ideal S1x256 .f32) (bi : Nat)
    (h0 : ∀ (x : S4096x128.Idx) (i : S40960x128.Idx), (i 0).val = bi * 4096 + (x 0).val → (i 1).val = (x 1).val → x0 x = A0 i)
    (h1 : ∀ (x : S4096x128.Idx) (i : S40960x128.Idx), (i 0).val = bi * 4096 + (x 0).val → (i 1).val = (x 1).val → x1 x = A1 i)
    (a : Fin 4096) (q : Fin 256) (i : S40960x256.Idx) (hi0 : (i 0).val = bi * 4096 + a.val) (hi1 : (i 1).val = q.val) :
    k0_pay1 (F := Ideal) x0 x1 W0 W1 B (ix2 a q) = hOf A0 A1 W0 W1 B i := by
  rw [k0_pay1_at]
  unfold hOf
  have hq : (⟨(i 1).val, idx2_lt1 i⟩ : Fin 256) = q := Fin.ext hi1
  rw [hq]
  have s0 : ∑ k : Fin 128, x0 (ix2 a k) * W0 (ix2 k q)
      = ∑ k : Fin 128, A0 (ix2 (⟨(i 0).val, idx2_lt0 i⟩ : Fin 40960) k) * W0 (ix2 k q) :=
    Finset.sum_congr rfl fun k _ => by rw [h0 (ix2 a k) (ix2 (⟨(i 0).val, idx2_lt0 i⟩ : Fin 40960) k) hi0 rfl]
  have s1 : ∑ k : Fin 128, x1 (ix2 a k) * W1 (ix2 k q)
      = ∑ k : Fin 128, A1 (ix2 (⟨(i 0).val, idx2_lt0 i⟩ : Fin 40960) k) * W1 (ix2 k q) :=
    Finset.sum_congr rfl fun k _ => by rw [h1 (ix2 a k) (ix2 (⟨(i 0).val, idx2_lt0 i⟩ : Fin 40960) k) hi0 rfl]
  rw [s0, s1]

/-- Input window 0's block at point `t`, read at `x`: the array at the index `i` the block's rectangle names. -/
theorem iblk0_0_apply (c : Dev nD) (t : Fin cfg0.N) (x : S4096x128.Idx) (i : S40960x128.Idx)
    (h0 : (i 0).val = win0_0.index t (0 : Fin 2) * 4096 + (x 0).val) (h1 : (i 1).val = win0_0.index t (1 : Fin 2) * 128 + (x 1).val) :
    (iblk0 V c 0 t : Vec Ideal S4096x128 .f32) x = (V c main_v18 : S40960x128.Idx → EReal) i := by
  unfold iblk0
  rw [View.read_apply]
  show V c main_v18 _ = V c main_v18 _
  congr 1
  funext a
  apply Fin.ext
  match a with
  | ⟨0, _⟩ => show win0_0.index t (0 : Fin 2) * 4096 + 1 * (x 0).val = (i 0).val; omega
  | ⟨1, _⟩ => show win0_0.index t (1 : Fin 2) * 128 + 1 * (x 1).val = (i 1).val; omega

/-- Input window 1's block at point `t`, read at `x`: the array at the index `i` the block's rectangle names. -/
theorem iblk0_1_apply (c : Dev nD) (t : Fin cfg0.N) (x : S4096x128.Idx) (i : S40960x128.Idx)
    (h0 : (i 0).val = win0_1.index t (0 : Fin 2) * 4096 + (x 0).val) (h1 : (i 1).val = win0_1.index t (1 : Fin 2) * 128 + (x 1).val) :
    (iblk0 V c 1 t : Vec Ideal S4096x128 .f32) x = (V c main_v19 : S40960x128.Idx → EReal) i := by
  unfold iblk0
  rw [View.read_apply]
  show V c main_v19 _ = V c main_v19 _
  congr 1
  funext a
  apply Fin.ext
  match a with
  | ⟨0, _⟩ => show win0_1.index t (0 : Fin 2) * 4096 + 1 * (x 0).val = (i 0).val; omega
  | ⟨1, _⟩ => show win0_1.index t (1 : Fin 2) * 128 + 1 * (x 1).val = (i 1).val; omega

/-- Input window 2's block is its whole array. -/
theorem iblk0_2_eq (c : Dev nD) (t : Fin cfg0.N) :
    (iblk0 V c 2 t : Vec Ideal S128x256 .f32) = (V c main_arg1 : S128x256.Idx → EReal) := by
  obtain ⟨_, _, _, _, e0, e1, _, _, _, _, _, _⟩ := idx_facts0 t
  funext x
  unfold iblk0
  show V c main_arg1 (((cfg0.win 2).blk t).view.emb x) = V c main_arg1 x
  congr 1
  funext a
  apply Fin.ext
  match a with
  | ⟨0, _⟩ => show win0_2.index t (0 : Fin 2) * 128 + 1 * (x 0).val = (x 0).val; omega
  | ⟨1, _⟩ => show win0_2.index t (1 : Fin 2) * 256 + 1 * (x 1).val = (x 1).val; omega

/-- Input window 3's block is its whole array. -/
theorem iblk0_3_eq (c : Dev nD) (t : Fin cfg0.N) :
    (iblk0 V c 3 t : Vec Ideal S1x256 .f32) = (V c main_v20 : S1x256.Idx → EReal) := by
  obtain ⟨_, _, _, _, _, _, e0, e1, _, _, _, _⟩ := idx_facts0 t
  funext x
  unfold iblk0
  show V c main_v20 (((cfg0.win 3).blk t).view.emb x) = V c main_v20 x
  congr 1
  funext a
  apply Fin.ext
  match a with
  | ⟨0, _⟩ => show win0_3.index t (0 : Fin 2) * 1 + 1 * (x 0).val = (x 0).val; omega
  | ⟨1, _⟩ => show win0_3.index t (1 : Fin 2) * 256 + 1 * (x 1).val = (x 1).val; omega

/-- Input window 4's block is its whole array. -/
theorem iblk0_4_eq (c : Dev nD) (t : Fin cfg0.N) :
    (iblk0 V c 4 t : Vec Ideal S128x256 .f32) = (V c main_arg3 : S128x256.Idx → EReal) := by
  obtain ⟨_, _, _, _, _, _, _, _, e0, e1, _, _⟩ := idx_facts0 t
  funext x
  unfold iblk0
  show V c main_arg3 (((cfg0.win 4).blk t).view.emb x) = V c main_arg3 x
  congr 1
  funext a
  apply Fin.ext
  match a with
  | ⟨0, _⟩ => show win0_4.index t (0 : Fin 2) * 128 + 1 * (x 0).val = (x 0).val; omega
  | ⟨1, _⟩ => show win0_4.index t (1 : Fin 2) * 256 + 1 * (x 1).val = (x 1).val; omega

/-- What point `t` writes back is block `t` of the combined array of the arrays the region reads. -/
theorem flushed0_eq (c : Dev nD) (t : Fin cfg0.N) :
    (dat0 V c).flushed 5 t = ((cfg0.win 5).blk t).view.read (Elt Ideal)
      (hOf (V c main_v18) (V c main_v19) (V c main_arg1) (V c main_arg3) (V c main_v20)) := by
  show (cfg0.win 5).cut (grid0.coords t) ((dat0 V c).after 5 t) = _
  rw [after0_5]
  unfold out0_5
  rw [View.canon_unit_zero hz]
  simp only [View.ld_unit_zero (S := S4096x128) hz, View.ld_unit_zero (S := S128x256) hz, View.ld_unit_zero (S := S1x256) hz]
  rw [iblk0_2_eq, iblk0_3_eq, iblk0_4_eq]
  obtain ⟨e0, e1, e2, e3, _, _, _, _, _, _, e10, e11⟩ := idx_facts0 t
  funext j
  have hj0 : (j 0).val < 4096 := (j 0).isLt
  have hj1 : (j 1).val < 256 := (j 1).isLt
  have hx : (cfg0.win 5).xinj (grid0.coords t) j = ix2 (⟨(j 0).val, hj0⟩ : Fin 4096) (⟨(j 1).val, hj1⟩ : Fin 256) :=
    funext fun a => match a with | ⟨0, _⟩ => rfl | ⟨1, _⟩ => rfl
  refine (congrArg (k0_pay1 (F := Ideal) (iblk0 V c 0 t) (iblk0 V c 1 t) (V c main_arg1) (V c main_arg3) (V c main_v20)) hx).trans ?_
  show k0_pay1 (F := Ideal) (iblk0 V c 0 t) (iblk0 V c 1 t) (V c main_arg1) (V c main_arg3) (V c main_v20)
      (ix2 (⟨(j 0).val, hj0⟩ : Fin 4096) (⟨(j 1).val, hj1⟩ : Fin 256))
    = hOf (V c main_v18) (V c main_v19) (V c main_arg1) (V c main_arg3) (V c main_v20) (((cfg0.win 5).blk t).view.emb j)
  refine rows_eq (iblk0 V c 0 t) (iblk0 V c 1 t) (V c main_v18) (V c main_v19) (V c main_arg1) (V c main_arg3) (V c main_v20)
    (win0_5.index t (0 : Fin 2))
    (fun x i h0 h1 => iblk0_0_apply V c t x i (by rw [e0]; exact h0) (by rw [e1]; omega))
    (fun x i h0 h1 => iblk0_1_apply V c t x i (by rw [e2]; exact h0) (by rw [e3]; omega)) _ _ _ ?_ ?_
  · show win0_5.index t (0 : Fin 2) * 4096 + 1 * (j 0).val = win0_5.index t (0 : Fin 2) * 4096 + (j 0).val; omega
  · show win0_5.index t (1 : Fin 2) * 256 + 1 * (j 1).val = (j 1).val; omega

/-- An index of the array is in point `t`'s block iff each coordinate is in the block's range on its axis. -/
theorem mem_blk0 (t : Fin cfg0.N) (i : S40960x256.Idx) :
    i ∈ ((cfg0.win 5).blk t).view.set ↔ ∀ a : Fin 2, win0_5.index t a * S4096x256.size a ≤ (i a).val ∧ (i a).val < win0_5.index t a * S4096x256.size a + S4096x256.size a := by
  show i ∈ ((View.whole main_v21).slice (win0_5.rect t)).set ↔ _
  rw [View.set_slice_whole, Rect.mem_set_unit]
  exact Iff.rfl

/-- Every index of the array is in some point's block: the point whose row block is the row's quotient by 4096. -/
theorem cover0 (i : S40960x256.Idx) : ∃ t : Fin cfg0.N, (cfg0.win 5).flush t = true ∧ i ∈ ((cfg0.win 5).blk t).view.set := by
  have hi0 : (i 0).val < 40960 := (i 0).isLt
  have hi1 : (i 1).val < 256 := (i 1).isLt
  obtain ⟨t, ht⟩ := idx_onto0 ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 256 ≤ (i 1).val ∧ (i 1).val < win0_5.index t (1 : Fin 2) * 256 + 256; omega

/-- The output array after all write-backs is the combined array. -/
theorem final0 (c : Dev nD) : (dat0 V c).arrAt 5 cfg0.N
    = hOf (V c main_v18) (V c main_v19) (V c main_arg1) (V c main_arg3) (V c main_v20) :=
  (dat0 V c).arrAt_eq_of_cover 5 _ (fun t _ => flushed0_eq V c t) cover0

/-- Region 0's output at `(r, q)`: the two products' sum plus the bias, clamped below at zero. -/
theorem h_arr (c : Dev nD) (r : Fin 40960) (q : Fin 256) :
    onIdx S40960x256 ((dat0 V c).arrAt 5 cfg0.N) (ix2 r q)
      = max (((∑ k : Fin 128, onIdx S40960x128 (V c main_v18) (ix2 r k) * onIdx S128x256 (V c main_arg1) (ix2 k q))
          + ∑ k : Fin 128, onIdx S40960x128 (V c main_v19) (ix2 r k) * onIdx S128x256 (V c main_arg3) (ix2 k q))
        + onIdx S1x256 (V c main_v20) (ix2 (0 : Fin 1) q)) 0 :=
  (congrFun (final0 V c) (ix2 r q)).trans rfl

end Cert.KernelIdeal.Arrays

end
-- ==== Proof.RefAt.lean ====
/-
  The reference's four dense stages read at an index on the extended reals, the two neighbour-mean chains kept as opaque functions:
    the first layer's output   max (((mean₀·Wl₀) + b₀) + x·Wr₀, 0),
    the second layer's output  z = ((mean₁·Wl₁) + b₁) + h·Wr₁,
    its log-softmax            (z − rowmax z) − log Σ exp (z − rowmax z) — the host takes the row maximum as a reduction from −∞
                               and then the maximum of −∞ with it, which is the row maximum; its sum starts from 0,
    the product                Σₖ z[r, k] · z[s, k], the second operand being z transposed.
-/
import proofs.«113220_j42322607735218_1_alg».proof.Proof.RefRead
import Idealize.ShloMosaic.Lib.ValueIdx
import Idealize.ShloMosaic.PureOps.Ideal
import Idealize.ShloMosaic.PureOps.Ideal.Laws
import Idealize.ShloMosaic.PureOps.Reduce

noncomputable section

namespace Cert.ReferenceIdeal.RefAt

open Idealize.ShloMosaic Idealize.ShloMosaic.ValueIdx Cert.ReferenceIdeal Cert.ReferenceIdeal.Gen Cert.ReferenceIdeal.ReadP
open scoped BigOperators

variable (x0 : (⟨S409600x128, .f32⟩ : BufTy).Contents (Elt Ideal))
  (x1 : (⟨S128x256, .f32⟩ : BufTy).Contents (Elt Ideal))
  (x2 : (⟨S256, .f32⟩ : BufTy).Contents (Elt Ideal))
  (x3 : (⟨S128x256, .f32⟩ : BufTy).Contents (Elt Ideal))
  (x4 : (⟨S256x128, .f32⟩ : BufTy).Contents (Elt Ideal))
  (x5 : (⟨S128, .f32⟩ : BufTy).Contents (Elt Ideal))
  (x6 : (⟨S256x128, .f32⟩ : BufTy).Contents (Elt Ideal))
  (x7 x8 : (⟨S409600, .i32⟩ : BufTy).Contents (Elt Ideal))
  (x9 x10 : (⟨S40960, .i32⟩ : BufTy).Contents (Elt Ideal))

/-- The product of the second layer's output with its own transpose, at (r, s): the sum over the 128 features of
    the two rows' entries multiplied. -/
theorem prod_at (r s : Fin 4096) :
    val_main_v55 (F := Ideal) x0 x1 x2 x3 x4 x5 x6 x7 x8 x9 x10 (ix2 r s)
      = ∑ k : Fin 128, val_main_v52 (F := Ideal) x0 x1 x2 x3 x4 x5 x6 x7 x8 x9 x10 (ix2 r k)
          * val_main_v52 (F := Ideal) x0 x1 x2 x3 x4 x5 x6 x7 x8 x9 x10 (ix2 s k) := by
  rw [val_main_v55_apply]
  refine Finset.sum_congr rfl fun k _ => ?_
  rw [val_main_v54_apply]
  have e1 : lidx_main_v55 (ix2 r s) k = ix2 r k :=
    funext fun a => match a with | ⟨0, _⟩ => rfl | ⟨1, _⟩ => rfl
  have e2 : idx_main_v54 (ridx_main_v55 (ix2 r s) k) = ix2 s k :=
    funext fun a => match a with | ⟨0, _⟩ => rfl | ⟨1, _⟩ => rfl
  rw [e1, e2]

/-- The first layer's output at (r, q): the neighbour mean times the first weight, plus the bias, plus the node's own
    features times the second weight, clamped below at zero. -/
theorem h_at (r : Fin 40960) (q : Fin 256) :
    val_main_v26 (F := Ideal) x0 x1 x2 x3 x7 x8 (ix2 r q)
      = max (((∑ k : Fin 128, val_main_v19 (F := Ideal) x0 x7 x8 (ix2 r k) * x1 (ix2 k q)) + x2 (ix1 q))
          + ∑ k : Fin 128, val_main_v0 (F := Ideal) x0 (ix2 r k) * x3 (ix2 k q)) 0 := by
  have el (k : Fin 128) : lidx_main_v20 (ix2 r q) k = ix2 r k :=
    funext fun a => match a with | ⟨0, _⟩ => rfl | ⟨1, _⟩ => rfl
  have er (k : Fin 128) : ridx_main_v20 (ix2 r q) k = ix2 k q :=
    funext fun a => match a with | ⟨0, _⟩ => rfl | ⟨1, _⟩ => rfl
  have el' (k : Fin 128) : lidx_main_v24 (ix2 r q) k = ix2 r k :=
    funext fun a => match a with | ⟨0, _⟩ => rfl | ⟨1, _⟩ => rfl
  have er' (k : Fin 128) : ridx_main_v24 (ix2 r q) k = ix2 k q :=
    funext fun a => match a with | ⟨0, _⟩ => rfl | ⟨1, _⟩ => rfl
  have eb : idx_main_v21 (idx_main_v22 (ix2 r q)) = ix1 q :=
    funext fun a => match a with | ⟨0, _⟩ => rfl
  have hS1 : (∑ k : Fin 128, val_main_v19 (F := Ideal) x0 x7 x8 (lidx_main_v20 (ix2 r q) k)
        * x1 (ridx_main_v20 (ix2 r q) k))
      = ∑ k : Fin 128, val_main_v19 (F := Ideal) x0 x7 x8 (ix2 r k) * x1 (ix2 k q) :=
    Finset.sum_congr rfl fun k _ => by rw [el k, er k]
  have hS2 : (∑ k : Fin 128, val_main_v0 (F := Ideal) x0 (lidx_main_v24 (ix2 r q) k)
        * x3 (ridx_main_v24 (ix2 r q) k))
      = ∑ k : Fin 128, val_main_v0 (F := Ideal) x0 (ix2 r k) * x3 (ix2 k q) :=
    Finset.sum_congr rfl fun k _ => by rw [el' k, er' k]
  rw [val_main_v26_apply, val_main_v25_apply, val_main_v23_apply, val_main_v20_apply, val_main_v24_apply,
    val_main_v22_apply, val_main_v21_apply, val_main_call0_v0_apply, val_main_call0_cst_apply, hS1, hS2, eb,
    Ideal.maximumf_def, Ideal.addf_def, Ideal.addf_def, Ideal.ofBits_def, Ideal.ofBits_zero_f32]

/-- The second layer's output at (r, q): the neighbour mean of the first layer's output times the first weight, plus
    the bias, plus the node's own first-layer row times the second weight. -/
theorem z_at (r : Fin 4096) (q : Fin 128) :
    val_main_v52 (F := Ideal) x0 x1 x2 x3 x4 x5 x6 x7 x8 x9 x10 (ix2 r q)
      = ((∑ k : Fin 256, val_main_v46 (F := Ideal) x0 x1 x2 x3 x7 x8 x9 x10 (ix2 r k) * x4 (ix2 k q)) + x5 (ix1 q))
          + ∑ k : Fin 256, val_main_v27 (F := Ideal) x0 x1 x2 x3 x7 x8 (ix2 r k) * x6 (ix2 k q) := by
  have el (k : Fin 256) : lidx_main_v47 (ix2 r q) k = ix2 r k :=
    funext fun a => match a with | ⟨0, _⟩ => rfl | ⟨1, _⟩ => rfl
  have er (k : Fin 256) : ridx_main_v47 (ix2 r q) k = ix2 k q :=
    funext fun a => match a with | ⟨0, _⟩ => rfl | ⟨1, _⟩ => rfl
  have el' (k : Fin 256) : lidx_main_v51 (ix2 r q) k = ix2 r k :=
    funext fun a => match a with | ⟨0, _⟩ => rfl | ⟨1, _⟩ => rfl
  have er' (k : Fin 256) : ridx_main_v51 (ix2 r q) k = ix2 k q :=
    funext fun a => match a with | ⟨0, _⟩ => rfl | ⟨1, _⟩ => rfl
  have eb : idx_main_v48 (idx_main_v49 (ix2 r q)) = ix1 q :=
    funext fun a => match a with | ⟨0, _⟩ => rfl
  have hS1 : (∑ k : Fin 256, val_main_v46 (F := Ideal) x0 x1 x2 x3 x7 x8 x9 x10 (lidx_main_v47 (ix2 r q) k)
        * x4 (ridx_main_v47 (ix2 r q) k))
      = ∑ k : Fin 256, val_main_v46 (F := Ideal) x0 x1 x2 x3 x7 x8 x9 x10 (ix2 r k) * x4 (ix2 k q) :=
    Finset.sum_congr rfl fun k _ => by rw [el k, er k]
  have hS2 : (∑ k : Fin 256, val_main_v27 (F := Ideal) x0 x1 x2 x3 x7 x8 (lidx_main_v51 (ix2 r q) k)
        * x6 (ridx_main_v51 (ix2 r q) k))
      = ∑ k : Fin 256, val_main_v27 (F := Ideal) x0 x1 x2 x3 x7 x8 (ix2 r k) * x6 (ix2 k q) :=
    Finset.sum_congr rfl fun k _ => by rw [el' k, er' k]
  rw [val_main_v52_apply, val_main_v50_apply, val_main_v47_apply, val_main_v51_apply, val_main_v49_apply,
    val_main_v48_apply, hS1, hS2, eb, Ideal.addf_def, Ideal.addf_def]

/-- The largest entry of row `p` of a 4096 × 128 array of extended reals (−∞ for no entries). -/
def rowMax (z : (⟨2, ![4096, 128]⟩ : Shape).Idx → EReal) (p : Fin 4096) : EReal :=
  (Finset.univ : Finset (Fin 128)).fold max ⊥ (fun k => z (ix2 p k))

/-- The f32 pattern of −∞ is the extended real −∞. -/
theorem ofBits_negInf_f32 : Ideal.ofBits .f32 0xFF800000#32 = ⊥ := by simp [Ideal.ofBits, Ideal.ieee]

/-- A row index with the column `k` put back on the dropped axis is (p, k). -/
theorem lift_row (h : S4096x128.Reduces [1] S4096) (p : Fin 4096) (k : Fin (S4096x128.size 1)) :
    h.lift (ix1 p) k = ix2 p (⟨k.val, k.isLt⟩ : Fin 128) := by
  funext c; apply Fin.ext
  fin_cases c <;> rfl

/-- A reduce over axis 1 with a maximum body, started from −∞, is at row `p` that row's largest entry. -/
theorem hostReduce_max_row (Z : (⟨S4096x128, .f32⟩ : BufTy).Contents (Elt Ideal))
    (init : (⟨S_, .f32⟩ : BufTy).Contents (Elt Ideal)) (hinit : init (Shape.Idx.first h_S_) = ⊥) (p : Fin 4096) :
    Host.reduce (α := Ideal .f32) (FloatOps.maximumf (F := Ideal) (φ := .f32)) Z init reducesTo_S4096x128_S4096_d1 h_S_
        (ix1 p) = rowMax Z p := by
  have h : S4096x128.Reduces [1] S4096 := by decide
  rw [Host.reduce_eq_fold_single (α := Ideal .f32) (FloatOps.maximumf (F := Ideal) (φ := .f32)) Z _
    reducesTo_S4096x128_S4096_d1 h h_S_, hinit]
  unfold rowMax
  have hf : (Z ∘ h.lift (ix1 p)) = fun k : Fin 128 => Z (ix2 p k) :=
    funext fun k => congrArg Z (lift_row h p k)
  exact congrArg (fun f => Finset.fold max (⊥ : EReal) f (Finset.univ : Finset (Fin 128))) hf

/-- The maximum over axis 1 from −∞, then the maximum of −∞ with it, is the row's largest entry. -/
theorem rowMax_stage (p : Fin 4096) :
    val_main_call1_v2 (F := Ideal) x0 x1 x2 x3 x4 x5 x6 x7 x8 x9 x10 (ix1 p)
      = rowMax (val_main_v52 (F := Ideal) x0 x1 x2 x3 x4 x5 x6 x7 x8 x9 x10) p := by
  rw [val_main_call1_v2_apply, val_main_call1_v1_apply, val_main_call1_cst_0_apply, Ideal.ofBits_def,
    ofBits_negInf_f32, Ideal.maximumf_def, max_bot_left]
  unfold val_main_call1_v0
  generalize val_main_v52 (F := Ideal) x0 x1 x2 x3 x4 x5 x6 x7 x8 x9 x10 = Z
  have hinit : val_main_call1_cst (F := Ideal) (Shape.Idx.first h_S_) = ⊥ := by
    rw [val_main_call1_cst_apply, Ideal.ofBits_def, ofBits_negInf_f32]
  exact hostReduce_max_row Z (val_main_call1_cst (F := Ideal)) hinit p

/-- The log-softmax of the second layer's output along the features, at (r, q): the entry less its row's largest
    entry, less the logarithm of the row's sum of exponentials of entries less that largest entry. -/
theorem logp_at (r : Fin 4096) (q : Fin 128) :
    val_main_v53 (F := Ideal) x0 x1 x2 x3 x4 x5 x6 x7 x8 x9 x10 (ix2 r q)
      = (val_main_v52 (F := Ideal) x0 x1 x2 x3 x4 x5 x6 x7 x8 x9 x10 (ix2 r q)
            - rowMax (val_main_v52 (F := Ideal) x0 x1 x2 x3 x4 x5 x6 x7 x8 x9 x10) r)
          - Ideal.log (∑ k : Fin 128, Ideal.exp
              (val_main_v52 (F := Ideal) x0 x1 x2 x3 x4 x5 x6 x7 x8 x9 x10 (ix2 r k)
                - rowMax (val_main_v52 (F := Ideal) x0 x1 x2 x3 x4 x5 x6 x7 x8 x9 x10) r)) := by
  have e4 (c : Fin 128) : idx_main_call1_v3 (idx_main_call1_v4 (ix2 r c)) = ix1 r :=
    funext fun a => match a with | ⟨0, _⟩ => rfl
  have e8 : idx_main_call1_v8 (idx_main_call1_v10 (ix2 r q)) = ix1 r :=
    funext fun a => match a with | ⟨0, _⟩ => rfl
  have e7 (k : Fin 128) : idx_main_call1_v7 (ix1 r) k = ix2 r k :=
    funext fun a => match a with | ⟨0, _⟩ => rfl | ⟨1, _⟩ => rfl
  -- the shifted entry, at any column of row r
  have h5 (c : Fin 128) : val_main_call1_v5 (F := Ideal) x0 x1 x2 x3 x4 x5 x6 x7 x8 x9 x10 (ix2 r c)
      = val_main_v52 (F := Ideal) x0 x1 x2 x3 x4 x5 x6 x7 x8 x9 x10 (ix2 r c)
          - rowMax (val_main_v52 (F := Ideal) x0 x1 x2 x3 x4 x5 x6 x7 x8 x9 x10) r := by
    rw [val_main_call1_v5_apply, val_main_call1_v4_apply, val_main_call1_v3_apply, e4, rowMax_stage,
      Ideal.subf_def]
  -- the row's sum of exponentials
  have hsum : (∑ k : Fin 128, val_main_call1_v6 (F := Ideal) x0 x1 x2 x3 x4 x5 x6 x7 x8 x9 x10
        (idx_main_call1_v7 (ix1 r) k))
      = ∑ k : Fin 128, Ideal.exp
          (val_main_v52 (F := Ideal) x0 x1 x2 x3 x4 x5 x6 x7 x8 x9 x10 (ix2 r k)
            - rowMax (val_main_v52 (F := Ideal) x0 x1 x2 x3 x4 x5 x6 x7 x8 x9 x10) r) :=
    Finset.sum_congr rfl fun k _ => by rw [e7, val_main_call1_v6_apply, h5, Ideal.hostUnary_exp_def]
  rw [val_main_v53_apply, val_main_call1_v10_apply, val_main_call1_v9_apply, val_main_call1_v8_apply, e8,
    val_main_call1_v7_apply, val_main_call1_cst_1_apply, hsum, h5, Ideal.subf_def, Ideal.hostUnary_log_def,
    Ideal.ofBits_def, Ideal.ofBits_zero_f32, zero_add]

end Cert.ReferenceIdeal.RefAt

end
-- ==== Proof.HostChains.lean ====
/-
  What the kernel program's two stretches of host operations compute, over any buffer contents they start from.
  They are the reference's own operations on the same operands: the first stretch leaves the first layer's neighbour mean, the first
  rows of the node features, and the bias as a one-row matrix; the second leaves, from the first region's output, the second
  layer's neighbour mean, the first rows of that output, and the second bias as a row. Each is stated as the reference's stage
  function of the same operands, so no gather or scatter-add is ever opened; a bias row read at (0, q) is the bias at q.
-/
import proofs.«113220_j42322607735218_1_alg».proof.Proof.Gen.KernelIdeal.Launch
import proofs.«113220_j42322607735218_1_alg».proof.Proof.RefRead
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostChains

open Idealize.ShloMosaic Idealize.ShloMosaic.ValueIdx Idealize.ShloMosaic.StableHlo Idealize.SL.Sem
open Cert.KernelIdeal Cert.KernelIdeal.Gen

/-- After the first host stretch the row-slice buffer holds the reference's row slice of the node features. -/
theorem xdst0_eq (W : Valuation τ sig (Elt Ideal)) :
    StableHlo.after (hostOps0 (F := Ideal)) W (Proc.devRef .tc main_v19)
      = Cert.ReferenceIdeal.ReadP.val_main_v0 (F := Ideal) (W (Proc.devRef .tc main_arg0)) := by
  after_results_simp
  rfl

/-- After the first host stretch the neighbour-mean buffer holds the reference's first-layer neighbour mean: the same
    gather, scatter-add, count and division, operation for operation. -/
theorem mean0_eq (W : Valuation τ sig (Elt Ideal)) :
    StableHlo.after (hostOps0 (F := Ideal)) W (Proc.devRef .tc main_v18)
      = Cert.ReferenceIdeal.ReadP.val_main_v19 (F := Ideal) (W (Proc.devRef .tc main_arg0))
          (W (Proc.devRef .tc main_arg7)) (W (Proc.devRef .tc main_arg8)) := by
  after_results_simp
  unfold Cert.ReferenceIdeal.ReadP.val_main_v19 Cert.ReferenceIdeal.ReadP.val_main_v18
    Cert.ReferenceIdeal.ReadP.val_main_v17 Cert.ReferenceIdeal.ReadP.val_main_v16
    Cert.ReferenceIdeal.ReadP.val_main_v15 Cert.ReferenceIdeal.ReadP.val_main_v14
    Cert.ReferenceIdeal.ReadP.val_main_v13 Cert.ReferenceIdeal.ReadP.val_main_v12
    Cert.ReferenceIdeal.ReadP.val_main_v11 Cert.ReferenceIdeal.ReadP.val_main_v10
    Cert.ReferenceIdeal.ReadP.val_main_v9 Cert.ReferenceIdeal.ReadP.val_main_v8
    Cert.ReferenceIdeal.ReadP.val_main_v7 Cert.ReferenceIdeal.ReadP.val_main_v6
    Cert.ReferenceIdeal.ReadP.val_main_v5 Cert.ReferenceIdeal.ReadP.val_main_v4
    Cert.ReferenceIdeal.ReadP.val_main_v3 Cert.ReferenceIdeal.ReadP.val_main_v2
    Cert.ReferenceIdeal.ReadP.val_main_v1 Cert.ReferenceIdeal.ReadP.val_main_c
    Cert.ReferenceIdeal.ReadP.val_main_c_0 Cert.ReferenceIdeal.ReadP.val_main_cst
    Cert.ReferenceIdeal.ReadP.val_main_cst_1 Cert.ReferenceIdeal.ReadP.val_main_cst_2
    Cert.ReferenceIdeal.ReadP.val_main_cst_3
  rfl

/-- After the first host stretch the bias-row buffer holds the first bias as one row: entry (0, q) is the bias at q. -/
theorem bias0_at (W : Valuation τ sig (Elt Ideal)) (q : Fin 256) :
    StableHlo.after (hostOps0 (F := Ideal)) W (Proc.devRef .tc main_v20) (ix2 (0 : Fin 1) q)
      = W (Proc.devRef .tc main_arg2) (ix1 q) := by
  after_results_simp
  exact shapeCast_a_1a_apply _ _ 0 q

section SecondStretch

variable (x0 : (⟨Cert.ReferenceIdeal.S409600x128, .f32⟩ : BufTy).Contents (Elt Ideal))
  (x1 : (⟨Cert.ReferenceIdeal.S128x256, .f32⟩ : BufTy).Contents (Elt Ideal))
  (x2 : (⟨Cert.ReferenceIdeal.S256, .f32⟩ : BufTy).Contents (Elt Ideal))
  (x3 : (⟨Cert.ReferenceIdeal.S128x256, .f32⟩ : BufTy).Contents (Elt Ideal))
  (x7 x8 : (⟨Cert.ReferenceIdeal.S409600, .i32⟩ : BufTy).Contents (Elt Ideal))
  (x9 x10 : (⟨Cert.ReferenceIdeal.S40960, .i32⟩ : BufTy).Contents (Elt Ideal))

/-- After the second host stretch, run from contents whose first-layer buffer holds the reference's first-layer
    output, the neighbour-mean buffer holds the reference's second-layer neighbour mean: the same gather,
    scatter-add, count and division, operation for operation. -/
theorem mean1_eq (W : Valuation τ sig (Elt Ideal))
    (h21 : W (Proc.devRef .tc main_v21) = Cert.ReferenceIdeal.ReadP.val_main_v26 (F := Ideal) x0 x1 x2 x3 x7 x8)
    (h9 : W (Proc.devRef .tc main_arg9) = x9) (h10 : W (Proc.devRef .tc main_arg10) = x10) :
    StableHlo.after (hostOps1 (F := Ideal)) W (Proc.devRef .tc main_v40)
      = Cert.ReferenceIdeal.ReadP.val_main_v46 (F := Ideal) x0 x1 x2 x3 x7 x8 x9 x10 := by
  subst h9 h10
  after_results_simp
  rw [h21]
  unfold Cert.ReferenceIdeal.ReadP.val_main_v46 Cert.ReferenceIdeal.ReadP.val_main_v45
    Cert.ReferenceIdeal.ReadP.val_main_v44 Cert.ReferenceIdeal.ReadP.val_main_v43
    Cert.ReferenceIdeal.ReadP.val_main_v42 Cert.ReferenceIdeal.ReadP.val_main_v41
    Cert.ReferenceIdeal.ReadP.val_main_v40 Cert.ReferenceIdeal.ReadP.val_main_v39
    Cert.ReferenceIdeal.ReadP.val_main_v38 Cert.ReferenceIdeal.ReadP.val_main_v37
    Cert.ReferenceIdeal.ReadP.val_main_v36 Cert.ReferenceIdeal.ReadP.val_main_v35
    Cert.ReferenceIdeal.ReadP.val_main_v34 Cert.ReferenceIdeal.ReadP.val_main_v33
    Cert.ReferenceIdeal.ReadP.val_main_v32 Cert.ReferenceIdeal.ReadP.val_main_v31
    Cert.ReferenceIdeal.ReadP.val_main_v30 Cert.ReferenceIdeal.ReadP.val_main_v29
    Cert.ReferenceIdeal.ReadP.val_main_v28 Cert.ReferenceIdeal.ReadP.val_main_c_4
    Cert.ReferenceIdeal.ReadP.val_main_c_5 Cert.ReferenceIdeal.ReadP.val_main_cst_6
    Cert.ReferenceIdeal.ReadP.val_main_cst_7 Cert.ReferenceIdeal.ReadP.val_main_cst_8
    Cert.ReferenceIdeal.ReadP.val_main_cst_9
  rfl

/-- After the second host stretch, run from such contents, the row-slice buffer holds the reference's row slice of
    the first layer's output. -/
theorem xdst1_eq (W : Valuation τ sig (Elt Ideal))
    (h21 : W (Proc.devRef .tc main_v21) = Cert.ReferenceIdeal.ReadP.val_main_v26 (F := Ideal) x0 x1 x2 x3 x7 x8) :
    StableHlo.after (hostOps1 (F := Ideal)) W (Proc.devRef .tc main_v41)
      = Cert.ReferenceIdeal.ReadP.val_main_v27 (F := Ideal) x0 x1 x2 x3 x7 x8 := by
  after_results_simp
  rw [h21]
  unfold Cert.ReferenceIdeal.ReadP.val_main_v27
  rfl

end SecondStretch

/-- After the second host stretch the bias-row buffer holds the second bias as one row: entry (0, q) is the bias at
    q. -/
theorem bias1_at (W : Valuation τ sig (Elt Ideal)) (q : Fin 128) :
    StableHlo.after (hostOps1 (F := Ideal)) W (Proc.devRef .tc main_v42) (ix2 (0 : Fin 1) q)
      = W (Proc.devRef .tc main_arg5) (ix1 q) := by
  after_results_simp
  exact shapeCast_a_1a_apply _ _ 0 q

end Cert.KernelIdeal.HostChains

end
-- ==== Proof.Bridge.lean ====
/-
  The kernel program's two result buffers hold the reference's log-softmax and product stages of the same arguments.
  The chain follows the program. The first stretch of host operations gives region 0 the reference's neighbour mean, row slice and
  bias; region 0's output array is, entry by entry, max ((A + B) + b, 0) where the reference has max ((A + b) + B, 0) — equal by
  commutativity and associativity of addition on the extended reals, no finiteness needed. So the second stretch, the same
  operations as the reference's on equal operands, gives region 1 the reference's second neighbour mean, row slice and bias; region
  1's two output arrays are z, by the same rearrangement, and its row-wise log-softmax, the two sides' row maximum being one fold;
  and region 2's output array is Σₖ z[r, k]·z[s, k], which is the reference's product of z with its transpose.
-/
import proofs.«113220_j42322607735218_1_alg».proof.Proof.IdealRun
import proofs.«113220_j42322607735218_1_alg».proof.Proof.IdealArrays
import proofs.«113220_j42322607735218_1_alg».proof.Proof.RefAt
import proofs.«113220_j42322607735218_1_alg».proof.Proof.HostChains
import proofs.«113220_j42322607735218_1_alg».proof.Proof.Gen.KernelIdeal.Regions
import Idealize.ShloMosaic.Lib.StableHlo.Run
import Idealize.ShloMosaic.Lib.ValueIdx

noncomputable section

namespace Cert.Proof.Bridge

open Idealize.ShloMosaic Idealize.ShloMosaic.ValueIdx Idealize.ShloMosaic.TcCoe Idealize.SL.Sem
open Cert.KernelIdeal Cert.KernelIdeal.Gen
open Cert.KernelIdeal.Arrays (onIdx)

variable (m : (ℓ : Loc nD τ sig) → Buf (Elt Ideal) ℓ) (ρ : Dev nD → PrngReg) (c : Dev nD)

set_option quotPrecheck false in
local notation "a0" => m ((c.tc : Thread nD τ).loc main_arg0)
set_option quotPrecheck false in
local notation "a1" => m ((c.tc : Thread nD τ).loc main_arg1)
set_option quotPrecheck false in
local notation "a2" => m ((c.tc : Thread nD τ).loc main_arg2)
set_option quotPrecheck false in
local notation "a3" => m ((c.tc : Thread nD τ).loc main_arg3)
set_option quotPrecheck false in
local notation "a4" => m ((c.tc : Thread nD τ).loc main_arg4)
set_option quotPrecheck false in
local notation "a5" => m ((c.tc : Thread nD τ).loc main_arg5)
set_option quotPrecheck false in
local notation "a6" => m ((c.tc : Thread nD τ).loc main_arg6)
set_option quotPrecheck false in
local notation "a7" => m ((c.tc : Thread nD τ).loc main_arg7)
set_option quotPrecheck false in
local notation "a8" => m ((c.tc : Thread nD τ).loc main_arg8)
set_option quotPrecheck false in
local notation "a9" => m ((c.tc : Thread nD τ).loc main_arg9)
set_option quotPrecheck false in
local notation "a10" => m ((c.tc : Thread nD τ).loc main_arg10)

/-- Two arrays of extended reals over a rank-2 index set are equal when they agree at every pair of coordinates. -/
theorem ext2 {n0 n1 : Nat} {f g : (⟨2, ![n0, n1]⟩ : Shape).Idx → EReal}
    (h : ∀ (r : Fin n0) (q : Fin n1), f (ix2 r q) = g (ix2 r q)) : f = g :=
  funext fun i => by rw [eq_ix2 i]; exact h _ _

/-! ## The first layer's inputs: the first host stretch run from the launch contents -/

theorem mean0 : Hand.V1 m ρ c main_v18 = Cert.ReferenceIdeal.ReadP.val_main_v19 (F := Ideal) a0 a7 a8 :=
  HostChains.mean0_eq (Hand.W0 m ρ c)

theorem xdst0 : Hand.V1 m ρ c main_v19 = Cert.ReferenceIdeal.ReadP.val_main_v0 (F := Ideal) a0 :=
  HostChains.xdst0_eq (Hand.W0 m ρ c)

theorem bias0 (q : Fin 256) : onIdx S1x256 (Hand.V1 m ρ c main_v20) (ix2 (0 : Fin 1) q) = a2 (ix1 q) :=
  HostChains.bias0_at (Hand.W0 m ρ c) q

theorem arg1_1 : Hand.V1 m ρ c main_arg1 = a1 :=
  StableHlo.after_of_writes_sub hostOps0 _ hostOps0_writes (by decide)

theorem arg3_1 : Hand.V1 m ρ c main_arg3 = a3 :=
  StableHlo.after_of_writes_sub hostOps0 _ hostOps0_writes (by decide)

/-! ## The first layer's output: region 0's output array -/

/-- Region 0's output array at (r, q) is the reference's first-layer output there: the same two products, bias and
    clamp, the three summands in another order. -/
theorem H_at (r : Fin 40960) (q : Fin 256) :
    onIdx S40960x256 (Hand.W2 m ρ c (Proc.devRef .tc main_v21)) (ix2 r q)
      = Cert.ReferenceIdeal.ReadP.val_main_v26 (F := Ideal) a0 a1 a2 a3 a7 a8 (ix2 r q) := by
  rw [show Hand.W2 m ρ c (Proc.devRef .tc main_v21) = (Hand.dat0 (Hand.V1 m ρ) c).arrAt 5 cfg0.N from Hand.W2_arr m ρ c 5,
    Arrays.h_arr, Cert.ReferenceIdeal.RefAt.h_at, mean0 m ρ c, xdst0 m ρ c, bias0 m ρ c q, arg1_1 m ρ c, arg3_1 m ρ c,
    add_right_comm]

theorem H_eq : Hand.W2 m ρ c (Proc.devRef .tc main_v21)
    = Cert.ReferenceIdeal.ReadP.val_main_v26 (F := Ideal) a0 a1 a2 a3 a7 a8 :=
  ext2 (n0 := 40960) (n1 := 256) fun r q => H_at m ρ c r q

/-! ## The second layer's inputs: the second host stretch run from region 0's exit contents -/

theorem W2_arg4 : Hand.W2 m ρ c (Proc.devRef .tc main_arg4) = a4 :=
  (Hand.W2_of_ne m ρ c main_arg4 (by decide)).trans
    (StableHlo.after_of_writes_sub hostOps0 _ hostOps0_writes (by decide))
theorem W2_arg5 : Hand.W2 m ρ c (Proc.devRef .tc main_arg5) = a5 :=
  (Hand.W2_of_ne m ρ c main_arg5 (by decide)).trans
    (StableHlo.after_of_writes_sub hostOps0 _ hostOps0_writes (by decide))
theorem W2_arg6 : Hand.W2 m ρ c (Proc.devRef .tc main_arg6) = a6 :=
  (Hand.W2_of_ne m ρ c main_arg6 (by decide)).trans
    (StableHlo.after_of_writes_sub hostOps0 _ hostOps0_writes (by decide))
theorem W2_arg9 : Hand.W2 m ρ c (Proc.devRef .tc main_arg9) = a9 :=
  (Hand.W2_of_ne m ρ c main_arg9 (by decide)).trans
    (StableHlo.after_of_writes_sub hostOps0 _ hostOps0_writes (by decide))
theorem W2_arg10 : Hand.W2 m ρ c (Proc.devRef .tc main_arg10) = a10 :=
  (Hand.W2_of_ne m ρ c main_arg10 (by decide)).trans
    (StableHlo.after_of_writes_sub hostOps0 _ hostOps0_writes (by decide))

theorem mean1 : Hand.V3 m ρ c main_v40
    = Cert.ReferenceIdeal.ReadP.val_main_v46 (F := Ideal) a0 a1 a2 a3 a7 a8 a9 a10 :=
  HostChains.mean1_eq _ _ _ _ _ _ _ _ (Hand.W2 m ρ c) (H_eq m ρ c) (W2_arg9 m ρ c) (W2_arg10 m ρ c)

theorem xdst1 : Hand.V3 m ρ c main_v41 = Cert.ReferenceIdeal.ReadP.val_main_v27 (F := Ideal) a0 a1 a2 a3 a7 a8 :=
  HostChains.xdst1_eq _ _ _ _ _ _ (Hand.W2 m ρ c) (H_eq m ρ c)

theorem bias1 (q : Fin 128) : onIdx S1x128 (Hand.V3 m ρ c main_v42) (ix2 (0 : Fin 1) q) = a5 (ix1 q) :=
  (HostChains.bias1_at (Hand.W2 m ρ c) q).trans (by rw [W2_arg5 m ρ c])

theorem arg4_3 : Hand.V3 m ρ c main_arg4 = a4 :=
  (StableHlo.after_of_writes_sub hostOps1 _ hostOps1_writes (by decide)).trans (W2_arg4 m ρ c)

theorem arg6_3 : Hand.V3 m ρ c main_arg6 = a6 :=
  (StableHlo.after_of_writes_sub hostOps1 _ hostOps1_writes (by decide)).trans (W2_arg6 m ρ c)

/-! ## The second layer's output and its log-softmax: region 1's two output arrays -/

/-- Region 1's first output array at (r, q) is the reference's second-layer output there. -/
theorem Z_at (r : Fin 4096) (q : Fin 128) :
    onIdx S4096x128 (Hand.W4 m ρ c (Proc.devRef .tc main_v43_0)) (ix2 r q)
      = Cert.ReferenceIdeal.ReadP.val_main_v52 (F := Ideal) a0 a1 a2 a3 a4 a5 a6 a7 a8 a9 a10 (ix2 r q) := by
  rw [show Hand.W4 m ρ c (Proc.devRef .tc main_v43_0) = (Hand.dat1 (Hand.V3 m ρ) c).arrAt 5 cfg1.N from Hand.W4_arr m ρ c 5,
    Arrays.z_arr, Cert.ReferenceIdeal.RefAt.z_at, mean1 m ρ c, xdst1 m ρ c, bias1 m ρ c q, arg4_3 m ρ c, arg6_3 m ρ c,
    add_right_comm]

theorem Z_eq : Hand.W4 m ρ c (Proc.devRef .tc main_v43_0)
    = Cert.ReferenceIdeal.ReadP.val_main_v52 (F := Ideal) a0 a1 a2 a3 a4 a5 a6 a7 a8 a9 a10 :=
  ext2 (n0 := 4096) (n1 := 128) fun r q => Z_at m ρ c r q

/-- Region 1's first output array, as the pipeline leaves it, is the reference's second-layer output. -/
theorem Z_arr_eq : (Hand.dat1 (Hand.V3 m ρ) c).arrAt 5 cfg1.N
    = Cert.ReferenceIdeal.ReadP.val_main_v52 (F := Ideal) a0 a1 a2 a3 a4 a5 a6 a7 a8 a9 a10 :=
  (Hand.W4_arr m ρ c 5).symm.trans (Z_eq m ρ c)

/-- Region 1's second output array at (r, q) is the reference's log-softmax there: both subtract the same row maximum
    and the same logarithm of the row's sum of exponentials. -/
theorem logp_at4 (r : Fin 4096) (q : Fin 128) :
    onIdx S4096x128 (Hand.W4 m ρ c (Proc.devRef .tc main_v43_1)) (ix2 r q)
      = Cert.ReferenceIdeal.ReadP.val_main_v53 (F := Ideal) a0 a1 a2 a3 a4 a5 a6 a7 a8 a9 a10 (ix2 r q) := by
  rw [show Hand.W4 m ρ c (Proc.devRef .tc main_v43_1) = (Hand.dat1 (Hand.V3 m ρ) c).arrAt 6 cfg1.N from Hand.W4_arr m ρ c 6,
    Arrays.logp_arr, Z_arr_eq m ρ c, Cert.ReferenceIdeal.RefAt.logp_at]
  rfl

theorem logp4 : Hand.W4 m ρ c (Proc.devRef .tc main_v43_1)
    = Cert.ReferenceIdeal.ReadP.val_main_v53 (F := Ideal) a0 a1 a2 a3 a4 a5 a6 a7 a8 a9 a10 :=
  ext2 (n0 := 4096) (n1 := 128) fun r q => logp_at4 m ρ c r q

/-! ## The two results -/

/-- The kernel program's first result buffer ends at the reference's log-softmax of the second layer's output. -/
theorem logp_eq : Hand.W5 (F := Ideal) m ρ c (Proc.devRef .tc main_v43_1)
    = Cert.ReferenceIdeal.ReadP.val_main_v53 (F := Ideal) a0 a1 a2 a3 a4 a5 a6 a7 a8 a9 a10 :=
  (Hand.W5_of_ne m ρ c main_v43_1 (by decide)).trans (logp4 m ρ c)

/-- Region 2's output array at (r, s) is the reference's product of the second layer's output with its transpose. -/
theorem prod_at5 (r s : Fin 4096) :
    onIdx S4096x4096 (Hand.W5 m ρ c (Proc.devRef .tc main_v44)) (ix2 r s)
      = Cert.ReferenceIdeal.ReadP.val_main_v55 (F := Ideal) a0 a1 a2 a3 a4 a5 a6 a7 a8 a9 a10 (ix2 r s) := by
  rw [Hand.W5_out m ρ c, Arrays.prod_arr,
    show Hand.V4 m ρ c main_v43_0
      = Cert.ReferenceIdeal.ReadP.val_main_v52 (F := Ideal) a0 a1 a2 a3 a4 a5 a6 a7 a8 a9 a10 from Z_eq m ρ c,
    Cert.ReferenceIdeal.RefAt.prod_at]

/-- The kernel program's second result buffer ends at the reference's product of the second layer's output with its
    transpose. -/
theorem prod_eq : Hand.W5 (F := Ideal) m ρ c (Proc.devRef .tc main_v44)
    = Cert.ReferenceIdeal.ReadP.val_main_v55 (F := Ideal) a0 a1 a2 a3 a4 a5 a6 a7 a8 a9 a10 :=
  ext2 (n0 := 4096) (n1 := 4096) fun r s => prod_at5 m ρ c r s

end Cert.Proof.Bridge

end
-- ==== Proof.lean ====
/-
  A two-layer mean-aggregating graph network with an inner-product decoder, as a kernel program and as its plain reference.

  Both programs compute, from node features x, two index lists per layer and the layers' weights:
    mean₀ = (scatter-add of the gathered rows x[src₀] at dst₀) / max(count, 1),   h = max(mean₀·Wl₀ + b₀ + x[:N₁]·Wr₀, 0),
    mean₁ = the same aggregation of h along (src₁, dst₁),                         z = mean₁·Wl₁ + b₁ + h[:N₂]·Wr₁,
  and return the row-wise log-softmax of z and the product z·zᵀ.
  The kernel program keeps the gathers and scatter-adds as host operations — the same ones, on the same operands, as the reference —
  and runs three kernels: the first layer's two products, bias and clamp over ten blocks of 4096 rows; the second layer's two
  products and bias on one block, with the log-softmax of the same block; and z·zᵀ as a 4 × 4 grid of 1024 × 1024 tiles, each the
  product of a row block of z with the transpose of another.
  Read on the extended reals, where a change of float format is the identity, a matrix product into a zero accumulator is the plain
  sum and every sum is exact, the two programs differ only in
    • the order of the three summands of each layer, (A + B) + b against (A + b) + B — equal by commutativity and associativity
      of addition, which hold on the extended reals with no finiteness assumption;
    • the reference's max(−∞, row maximum), which is the row maximum;
    • the tiling of the rows and of the product z·zᵀ, which does not change any entry.
  So the claim needs nothing of the precondition beyond what the frames need, and they need nothing: every host operation is a
  total function, and the kernels' index maps read no data.

  The parts: the three kernel regions' bodies and proof data (IdealRegion0 … 2; BitsRegion0 … 2 at the word level), the array that
  two windows of the third kernel share (IdealShared, BitsShared), the run of the whole program with every buffer's final contents
  named (IdealRun, BitsRun), each kernel body's payload and each output array read at an index (PayloadAt, IdealArrays), each
  reference stage read at an index (RefAt), the host stretches evaluated (HostChains), and the two results' equality (Bridge).
-/
import proofs.«113220_j42322607735218_1_alg».proof.Defs
import proofs.«113220_j42322607735218_1_alg».proof.Proof.Gen.Kernel
import proofs.«113220_j42322607735218_1_alg».proof.Proof.Gen.KernelIdeal
import proofs.«113220_j42322607735218_1_alg».proof.Proof.Gen.ReferenceIdeal
import proofs.«113220_j42322607735218_1_alg».proof.Proof.Gen.Pre_finite_inputs
import proofs.«113220_j42322607735218_1_alg».proof.Proof.BitsRun
import proofs.«113220_j42322607735218_1_alg».proof.Proof.IdealRun
import proofs.«113220_j42322607735218_1_alg».proof.Proof.RefRun
import proofs.«113220_j42322607735218_1_alg».proof.Proof.RefLink
import proofs.«113220_j42322607735218_1_alg».proof.Proof.Bridge
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_kernel : Cert.frame_Kernel := fun m ρ _ => Cert.Kernel.Hand.frame m ρ

/-- The same of the program read on the extended reals: the run is stated at any float instance. -/
theorem frame_kernelIdeal : Cert.frame_KernelIdeal := fun m ρ _ => Cert.KernelIdeal.Hand.frame m ρ

/-- The reference is a straight line of host operations: its run, with the results forgotten. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation: there is nothing to preserve. -/
theorem preserves : Cert.preserves_Kernel_KernelIdeal := trivial

/-- From memories agreeing on the arguments both programs run to the end with their arguments unchanged; the kernel program's two
    results are the last boundary's contents of its two result buffers, and those are the reference's log-softmax and product
    stages of the same arguments. -/
theorem algebraic : Cert.algebraic_KernelIdeal_ReferenceIdeal := by
  intro m ρ m' ρ' _ hagree
  refine ⟨fun c => Cert.KernelIdeal.Hand.W5 (F := Ideal) m ρ c (Proc.devRef .tc Cert.KernelIdeal.main_v43_1),
    fun c => Cert.KernelIdeal.Hand.W5 (F := Ideal) m ρ c (Proc.devRef .tc Cert.KernelIdeal.main_v44), ?_, ?_⟩
  · exact (θ_run Cert.KernelIdeal.defs _ _).mono (fun _ h c =>
      ⟨h c _ (Cert.KernelIdeal.Hand.mem_uc Cert.KernelIdeal.main_v43_1 (by decide)),
        h c _ (Cert.KernelIdeal.Hand.mem_uc Cert.KernelIdeal.main_v44 (by decide)),
        (h c _ (Cert.KernelIdeal.Hand.mem_uc Cert.KernelIdeal.main_arg0 (by decide))).trans (Cert.KernelIdeal.Hand.W5_main_arg0 m ρ c),
        (h c _ (Cert.KernelIdeal.Hand.mem_uc Cert.KernelIdeal.main_arg1 (by decide))).trans (Cert.KernelIdeal.Hand.W5_main_arg1 m ρ c),
        (h c _ (Cert.KernelIdeal.Hand.mem_uc Cert.KernelIdeal.main_arg2 (by decide))).trans (Cert.KernelIdeal.Hand.W5_main_arg2 m ρ c),
        (h c _ (Cert.KernelIdeal.Hand.mem_uc Cert.KernelIdeal.main_arg3 (by decide))).trans (Cert.KernelIdeal.Hand.W5_main_arg3 m ρ c),
        (h c _ (Cert.KernelIdeal.Hand.mem_uc Cert.KernelIdeal.main_arg4 (by decide))).trans (Cert.KernelIdeal.Hand.W5_main_arg4 m ρ c),
        (h c _ (Cert.KernelIdeal.Hand.mem_uc Cert.KernelIdeal.main_arg5 (by decide))).trans (Cert.KernelIdeal.Hand.W5_main_arg5 m ρ c),
        (h c _ (Cert.KernelIdeal.Hand.mem_uc Cert.KernelIdeal.main_arg6 (by decide))).trans (Cert.KernelIdeal.Hand.W5_main_arg6 m ρ c),
        (h c _ (Cert.KernelIdeal.Hand.mem_uc Cert.KernelIdeal.main_arg7 (by decide))).trans (Cert.KernelIdeal.Hand.W5_main_arg7 m ρ c),
        (h c _ (Cert.KernelIdeal.Hand.mem_uc Cert.KernelIdeal.main_arg8 (by decide))).trans (Cert.KernelIdeal.Hand.W5_main_arg8 m ρ c),
        (h c _ (Cert.KernelIdeal.Hand.mem_uc Cert.KernelIdeal.main_arg9 (by decide))).trans (Cert.KernelIdeal.Hand.W5_main_arg9 m ρ c),
        (h c _ (Cert.KernelIdeal.Hand.mem_uc Cert.KernelIdeal.main_arg10 (by decide))).trans (Cert.KernelIdeal.Hand.W5_main_arg10 m ρ c)⟩) (Cert.KernelIdeal.Hand.run_all (F := Ideal) m ρ)
  · refine (θ_run Cert.ReferenceIdeal.defs _ _).mono (fun _ h c => ⟨(h c).1.trans ?_, (h c).2.1.trans ?_, (h c).2.2⟩)
      (Cert.ReferenceIdeal.ValueP.run (F := Ideal) m' ρ')
    · obtain ⟨h0, h1, h2, h3, h4, h5, h6, h7, h8, h9, h10⟩ := hagree c
      rw [Cert.ReferenceIdeal.RefLink.val_main_v53_eq, h0, h1, h2, h3, h4, h5, h6, h7, h8, h9, h10]
      exact (Cert.Proof.Bridge.logp_eq m ρ c).symm
    · obtain ⟨h0, h1, h2, h3, h4, h5, h6, h7, h8, h9, h10⟩ := hagree c
      rw [Cert.ReferenceIdeal.RefLink.val_main_v55_eq, h0, h1, h2, h3, h4, h5, h6, h7, h8, h9, h10]
      exact (Cert.Proof.Bridge.prod_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
